-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v3)) (v6 : (c : Dev Cert.KernelIdeal.nD) → Buf (Elt Ideal) ((c.tc : Thread Cert.KernelIdeal.nD Cert.KernelIdeal.τ).loc Cert.KernelIdeal.main_v9)) (v7 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v3) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_v5) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_v3) = v5 c
          ∧ r.2.mem ((c.tc : Thread Cert.ReferenceIdeal.nD Cert.ReferenceIdeal.τ).loc Cert.ReferenceIdeal.main_v9) = v6 c
          ∧ r.2.mem ((c.tc : Thread Cert.ReferenceIdeal.nD Cert.ReferenceIdeal.τ).loc Cert.ReferenceIdeal.main_v5) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel

variable [Facts]

def fn {F : FTy → Type} [FloatOps F] (main_arg0 : FVec F S64x256x512 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  main_v3
-- ==== Kernel.lean ====
abbrev S64x256x512 : Shape := ⟨3, ![64, 256, 512]⟩
abbrev S8388608 : Shape := ⟨1, ![8388608]⟩
abbrev S16384x512 : Shape := ⟨2, ![16384, 512]⟩
abbrev S1024x512 : Shape := ⟨2, ![1024, 512]⟩

abbrev nBuf : Space → Nat
  | .hbm => 19
  | .vmem => 18
  | .smem => 0
  | _ => 0

abbrev bufTy : (tb : Table) → Fin (tcTables nBuf tb) → BufTy
  | .hbm, ⟨0, _⟩ => ⟨S64x256x512, .f32⟩
  | .hbm, ⟨1, _⟩ => ⟨S8388608, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S64x256x512, .f32⟩
  | .hbm, ⟨12, _⟩ => ⟨S64x256x512, .f32⟩
  | .hbm, ⟨13, _⟩ => ⟨S64x256x512, .f32⟩
  | .hbm, ⟨14, _⟩ => ⟨S64x256x512, .f32⟩
  | .hbm, ⟨15, _⟩ => ⟨S64x256x512, .f32⟩
  | .hbm, ⟨16, _⟩ => ⟨S64x256x512, .f32⟩
  | .hbm, ⟨17, _⟩ => ⟨S64x256x512, .f32⟩
  | .hbm, ⟨18, _⟩ => ⟨S64x256x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev main_v2_4 : Ref sig .tc := ⟨.hbm, 7, rfl⟩
abbrev main_v2_5 : Ref sig .tc := ⟨.hbm, 8, rfl⟩
abbrev main_v2_6 : Ref sig .tc := ⟨.hbm, 9, rfl⟩
abbrev main_v2_7 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x256x512_S8388608 : S64x256x512.ShapeCasts S8388608
  shapeCasts_S8388608_S16384x512 : S8388608.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S16384x512_S64x256x512 : S16384x512.ShapeCasts S64x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .f32 = 32 ∨ (Rect.block (s := S16384x512) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x512.size a
  hwx0_5 : ∀ i : grid0.Coords, EltTy.bits .f32 = 32 ∨ (Rect.block (s := S16384x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)

variable [Facts₀]

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1024x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_2) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_3) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_4) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_5) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_6) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_7) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S8388608 : Shape := ⟨1, ![8388608]⟩
abbrev S16384x512 : Shape := ⟨2, ![16384, 512]⟩
abbrev S512x512 : Shape := ⟨2, ![512, 512]⟩

abbrev nBuf : Space → Nat
  | .hbm => 19
  | .vmem => 18
  | .smem => 0
  | _ => 0

abbrev bufTy : (tb : Table) → Fin (tcTables nBuf tb) → BufTy
  | .hbm, ⟨0, _⟩ => ⟨S64x256x512, .f32⟩
  | .hbm, ⟨1, _⟩ => ⟨S8388608, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S64x256x512, .f32⟩
  | .hbm, ⟨12, _⟩ => ⟨S64x256x512, .f32⟩
  | .hbm, ⟨13, _⟩ => ⟨S64x256x512, .f32⟩
  | .hbm, ⟨14, _⟩ => ⟨S64x256x512, .f32⟩
  | .hbm, ⟨15, _⟩ => ⟨S64x256x512, .f32⟩
  | .hbm, ⟨16, _⟩ => ⟨S64x256x512, .f32⟩
  | .hbm, ⟨17, _⟩ => ⟨S64x256x512, .f32⟩
  | .hbm, ⟨18, _⟩ => ⟨S64x256x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev main_v2_4 : Ref sig .tc := ⟨.hbm, 7, rfl⟩
abbrev main_v2_5 : Ref sig .tc := ⟨.hbm, 8, rfl⟩
abbrev main_v2_6 : Ref sig .tc := ⟨.hbm, 9, rfl⟩
abbrev main_v2_7 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x256x512_S8388608 : S64x256x512.ShapeCasts S8388608
  shapeCasts_S8388608_S16384x512 : S8388608.ShapeCasts S16384x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S16384x512_S64x256x512 : S16384x512.ShapeCasts S64x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S16384x512.size a
  hwx0_4 : ∀ i : grid0.Coords, EltTy.bits .f32 = 32 ∨ (Rect.block (s := S16384x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)

variable [Facts₀]

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_2) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_3) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_4) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_5) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_6) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_7) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.Scalars.lean ====
/-
  The eight activation outputs as scalar functions on the extended reals, in the two arrangements the two
  programs compute them. Every output of either program is one of these functions applied to each element
  of the input, so the comparison of the programs is the comparison of these functions on a finite argument.

  The kernel's arrangement shares one transcendental, E = exp (0 - |x|), between the sigmoid
  (E / (1 + E) below zero, 1 / (1 + E) from zero up), the hyperbolic tangent (± (1 - E²) / (1 + E²)),
  the exponential-linear unit (E - 1 below zero) and the softplus; the reference's arrangement applies
  tanh, the logistic function and exp (min x 0) directly. The clamped error-function GELU is the same
  polynomial-times-Gaussian on both sides, the kernel scaling |c| by 1/√2 where the reference takes |c · 1/√2|.
-/
import Idealize.ShloMosaic.PureOps.Ideal

noncomputable section

namespace Cert.Act

open Idealize.ShloMosaic

/-- A single-precision literal as the extended real its word denotes. -/
abbrev lit (w : BitVec 32) : EReal := Ideal.ofBits .f32 w

abbrev z0 : EReal := lit 0x00000000#32
abbrev one : EReal := lit 0x3F800000#32
abbrev half : EReal := lit 0x3F000000#32
/-- 0.2 rounded to single precision. -/
abbrev c02 : EReal := lit 0x3E4CCCCD#32
/-- 1.2 rounded to single precision, and its negative: the two words differ in the sign bit only. -/
abbrev c12 : EReal := lit 0x3F99999A#32
abbrev cm12 : EReal := lit 0xBF99999A#32
abbrev c5 : EReal := lit 0x40A00000#32
abbrev cm5 : EReal := lit 0xC0A00000#32
/-- 1/√2 rounded to single precision. -/
abbrev ck : EReal := lit 0x3F3504F3#32
/-- The constants of the rational approximation of the error function. -/
abbrev ca : EReal := lit 0x3EA7BA05#32
abbrev p1 : EReal := lit 0x3E827906#32
abbrev p2 : EReal := lit 0xBE91A98E#32
abbrev p3 : EReal := lit 0x3FB5F0E3#32
abbrev p4 : EReal := lit 0xBFBA00E3#32
abbrev p5 : EReal := lit 0x3F87DC22#32

/-- |x| as both programs compute it. -/
abbrev abs' (x : EReal) : EReal := max x (-x)

/-- 1 - poly(t) · exp (-z · z): the error function's approximation at z ≥ 0, with t = 1 / (1 + a z). -/
def erfTail (t z : EReal) : EReal :=
  one - (t * (p1 + t * (p2 + t * (p3 + t * (p4 + t * p5))))) * Ideal.exp ((z0 - z) * z)

/-- The input clamped to [-5, 5]. -/
def clip (x : EReal) : EReal := min c5 (max cm5 x)

/-! ## The kernel's arrangement -/

def kNeg (x : EReal) : BitVec 1 := Ideal.cmp .olt x z0
/-- The shared transcendental exp (0 - |x|). -/
def kE (x : EReal) : EReal := Ideal.exp (z0 - abs' x)
def kKun (x : EReal) : EReal :=
  Scalar.select (kNeg x) (kE x * Ideal.div one (one + kE x)) (Ideal.div one (one + kE x))
def kKan (x : EReal) : EReal :=
  Scalar.select (kNeg x) (z0 - Ideal.div (one - kE x * kE x) (one + kE x * kE x))
    (Ideal.div (one - kE x * kE x) (one + kE x * kE x))
def kElu (x : EReal) : EReal := Scalar.select (kNeg x) (kE x - one) x
def kQian (x : EReal) : EReal := kElu x + half * kKan x
def kDui (x : EReal) : EReal := kElu x + c02 * x
def kZhen (x : EReal) : EReal := Scalar.select (kNeg x) (c02 * x) x
def kXun (x : EReal) : EReal := max x z0 + Ideal.log (one + kE x)
def kLi (x : EReal) : EReal :=
  x * Scalar.select (kNeg x)
    (Ideal.exp (cm12 * abs' x) * Ideal.div one (one + Ideal.exp (cm12 * abs' x)))
    (Ideal.div one (one + Ideal.exp (cm12 * abs' x)))
def kZ (x : EReal) : EReal := abs' (clip x) * ck
def kT (x : EReal) : EReal := Ideal.div one (one + ca * kZ x)
def kGen (x : EReal) : EReal :=
  (half * clip x) * (one + Scalar.select (Ideal.cmp .oge (clip x) z0) (erfTail (kT x) (kZ x)) (z0 - erfTail (kT x) (kZ x)))

/-! ## The reference's arrangement -/

def rElu (x : EReal) : EReal := Scalar.select (Ideal.cmp .ogt x z0) x (Ideal.exp (min x z0) - one)
def rQian (x : EReal) : EReal := rElu x + half * Ideal.tanh x
def rDui (x : EReal) : EReal := rElu x + c02 * x
def rKan (x : EReal) : EReal := Ideal.tanh x
def rKun (x : EReal) : EReal := Ideal.logistic x
def rZhen (x : EReal) : EReal := Scalar.select (Ideal.cmp .oge x z0) x (c02 * x)
def rLi (x : EReal) : EReal := x * Ideal.logistic (c12 * x)
def rXun (x : EReal) : EReal := max x z0 + Ideal.log (one + Ideal.exp (z0 - abs' x))
def rZ (x : EReal) : EReal := abs' (clip x * ck)
def rT (x : EReal) : EReal := Ideal.div one (one + ca * rZ x)
def rGen (x : EReal) : EReal :=
  (half * clip x) * (one + Scalar.select (Ideal.cmp .oge (clip x * ck) z0) (erfTail (rT x) (rZ x)) (z0 - erfTail (rT x) (rZ x)))

end Cert.Act

end
-- ==== Proof.KernelPayloads.lean ====
/-
  The idealized kernel's stored values, element by element: each store of the body writes, at every index of
  the block, one scalar function of the loaded input at that index (the functions of Proof/Scalars.lean in the
  kernel's arrangement). The block-shaped cast of the load to its own shape is the identity.
-/
import proofs.«126102_g2000006855445757_pallasbulk_964_2_alg».proof.Proof.Gen.KernelIdeal.Skeleton
import proofs.«126102_g2000006855445757_pallasbulk_964_2_alg».proof.Proof.Scalars
import Idealize.ShloMosaic.Lib.Pipeline.Value

noncomputable section

namespace Cert.KernelIdeal.Pointwise

open Idealize.ShloMosaic Cert.KernelIdeal Cert.KernelIdeal.Gen Cert.Act

variable [Facts]

/-- The loaded block, cast to its own shape, is itself. -/
theorem pay2 (x : Vec Ideal S1024x512 .f32) : k0_pay2 (F := Ideal) x = x := shapeCast_self x _

theorem pay3 (x : Vec Ideal S1024x512 .f32) : k0_pay3 (F := Ideal) x = fun j => kNeg (x j) := by
  unfold k0_pay3; rw [pay2]; rfl

theorem pay4 (x : Vec Ideal S1024x512 .f32) : k0_pay4 (F := Ideal) x = fun j => kE (x j) := by
  unfold k0_pay4; rw [pay2]; rfl

/-- The sigmoid output. -/
theorem pay5 (x : Vec Ideal S1024x512 .f32) : k0_pay5 (F := Ideal) x = fun j => kKun (x j) := by
  unfold k0_pay5; rw [pay3, pay4]; rfl

/-- The hyperbolic-tangent output. -/
theorem pay6 (x : Vec Ideal S1024x512 .f32) : k0_pay6 (F := Ideal) x = fun j => kKan (x j) := by
  unfold k0_pay6; rw [pay3, pay4]; rfl

theorem pay7 (x : Vec Ideal S1024x512 .f32) : k0_pay7 (F := Ideal) x = fun j => kElu (x j) := by
  unfold k0_pay7; rw [pay2, pay3, pay4]; rfl

theorem pay8 (x : Vec Ideal S1024x512 .f32) : k0_pay8 (F := Ideal) x = fun j => kQian (x j) := by
  unfold k0_pay8; rw [pay6, pay7]; rfl

theorem pay9 (x : Vec Ideal S1024x512 .f32) : k0_pay9 (F := Ideal) x = fun j => kDui (x j) := by
  unfold k0_pay9; rw [pay2, pay7]; rfl

theorem pay10 (x : Vec Ideal S1024x512 .f32) :
    k0_pay10 (F := Ideal) (k0_pay2 x) (k0_pay3 x) = fun j => kZhen (x j) := by
  rw [pay2, pay3]; rfl

theorem pay11 (x : Vec Ideal S1024x512 .f32) :
    k0_pay11 (F := Ideal) (k0_pay2 x) (k0_pay4 x) = fun j => kXun (x j) := by
  rw [pay2, pay4]; rfl

theorem pay12 (x : Vec Ideal S1024x512 .f32) :
    k0_pay12 (F := Ideal) (k0_pay2 x) (k0_pay3 x) = fun j => kLi (x j) := by
  rw [pay2, pay3]; rfl

/-- The clamped error-function GELU output. -/
theorem pay1 (x : Vec Ideal S1024x512 .f32) :
    k0_pay1 (F := Ideal) (k0_pay13 (k0_pay2 x)) (k0_pay14 (k0_pay2 x)) (k0_pay15 (k0_pay2 x)) (k0_pay16 (F := Ideal))
      = fun j => kGen (x j) := by
  rw [pay2]; rfl

end Cert.KernelIdeal.Pointwise

end
-- ==== Proof.Layout.lean ====
/-
  Both programs flatten the [64, 256, 512] input, re-lay it as 16384 rows of 512 lanes, apply one scalar function
  to every element, and restore the result to [64, 256, 512]. A cast keeps the elements in row-major order, so
  every element of a result is the scalar function of SOME element of the input; two such results agree as soon
  as the two scalar functions agree on the values the input takes.
-/
import Idealize.ShloMosaic.PureOps.Ideal

noncomputable section

namespace Cert.Act

open Idealize.ShloMosaic

abbrev S3 : Shape := ⟨3, ![64, 256, 512]⟩
abbrev S1 : Shape := ⟨1, ![8388608]⟩
abbrev S2 : Shape := ⟨2, ![16384, 512]⟩

/-- The scalar function `f` applied to every element of the re-laid input, restored to the input's shape. -/
def through (h1 : S3.ShapeCasts S1) (h2 : S1.ShapeCasts S2) (h3 : S2.ShapeCasts S3) (f : EReal → EReal)
    (X : S3.Idx → EReal) : S3.Idx → EReal :=
  shapeCast S3 (fun i => f (shapeCast S2 (shapeCast S1 X h1) h2 i)) h3

/-- Two scalar functions that agree at every finite real give the same result on an input whose elements are
    all finite. -/
theorem through_congr (h1 : S3.ShapeCasts S1) (h2 : S1.ShapeCasts S2) (h3 : S2.ShapeCasts S3) {f g : EReal → EReal}
    {X : S3.Idx → EReal} (hX : ∀ k, ∃ r : ℝ, X k = (r : EReal)) (hfg : ∀ r : ℝ, f (r : EReal) = g (r : EReal)) :
    through h1 h2 h3 f X = through h1 h2 h3 g X := by
  funext i
  unfold through shapeCast
  obtain ⟨r, hr⟩ := hX (Shape.reshapeEquiv h1 (Shape.reshapeEquiv h2 (Shape.reshapeEquiv h3 i)))
  show f (X _) = g (X _)
  rw [hr]
  exact hfg r

end Cert.Act

end
-- ==== Proof.KernelArrays.lean ====
/-
  What the idealized kernel's eight result arrays hold after the run. The region applies its body to 16 blocks of
  1024 rows of the re-laid input; each output's block at a point is one scalar function applied to the input's
  block at the same rows, the blocks tile the 16384 × 512 array, so each output array is that scalar function
  applied to the whole re-laid input; the lines after the region restore each to the input's shape.
-/
import proofs.«126102_g2000006855445757_pallasbulk_964_2_alg».proof.Proof.Gen.KernelIdeal.Frame
import proofs.«126102_g2000006855445757_pallasbulk_964_2_alg».proof.Proof.KernelPayloads
import proofs.«126102_g2000006855445757_pallasbulk_964_2_alg».proof.Proof.Layout
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Pointwise Cert.Act
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A scalar function applied at every index of the 16384 × 512 array. -/
abbrev mapArr (f : EReal → EReal) (a : S16384x512.Idx → Elt Ideal .f32) : S16384x512.Idx → Elt Ideal .f32 :=
  fun i => f (a i)

/-- The array the region reads: the input flattened and re-laid as 16384 rows of 512. -/
theorem V_v1 (c : Dev nD) : (V m c main_v1 : S16384x512.Idx → EReal)
    = shapeCast S16384x512 (shapeCast S8388608 (m ((c : Thread nD τ).loc main_arg0)) Facts₀.shapeCasts_S64x256x512_S8388608) Facts₀.shapeCasts_S8388608_S16384x512 := by
  show StableHlo.after hostOps0 (fun b => m (c, b)) (Proc.devRef .tc main_v1) = _
  after_results
  rfl

/-- The input window's block at point `t` starts at row 1024 · t, lane 0. -/
theorem idx0 : ∀ t : Fin cfg0.N, win0_0.index t (0 : Fin 2) = t.val ∧ win0_0.index t (1 : Fin 2) = 0 :=
  (by decide +kernel : ∀ t : Fin grid0.N, _)

/-! ### Output window 1 -/

theorem out1 (x0 : Vec Ideal S1024x512 .f32) : out0_1 (F := Ideal) x0 = fun j => kQian (x0 j) := by
  unfold out0_1; rw [View.canon_unit_zero hz, View.ld_unit_zero hz, pay8]

theorem idx1 : ∀ t : Fin cfg0.N, win0_1.index t (0 : Fin 2) = t.val ∧ win0_1.index t (1 : Fin 2) = 0 :=
  (by decide +kernel : ∀ t : Fin grid0.N, _)

/-- What point `t` writes back is block `t` of the scalar function applied to the whole re-laid input: the output's
    block and the input's block sit at the same rows. -/
theorem flushed1 (c : Dev nD) (t : Fin cfg0.N) :
    (dats m 0 c).flushed 1 t = ((cfg0.win 1).blk t).view.read (Elt Ideal) (mapArr kQian (V m c main_v1)) := by
  show (cfg0.win 1).cut (grid0.coords t) ((dats m 0 c).after 1 t) = _
  rw [after0_1, out1]
  obtain ⟨a0, a1⟩ := idx0 t
  obtain ⟨b0, b1⟩ := idx1 t
  funext j
  show kQian (V m c main_v1 (((cfg0.win 0).blk t).view.emb j)) = kQian (V m c main_v1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 512 + 1 * (j 1).val = win0_1.index t (1 : Fin 2) * 512 + 1 * (j 1).val; omega
  rw [h0]

theorem mem_blk1 (t : Fin cfg0.N) (i : S16384x512.Idx) :
    i ∈ ((cfg0.win 1).blk t).view.set ↔ ∀ a : Fin 2, win0_1.index t a * S1024x512.size a ≤ (i a).val ∧ (i a).val < win0_1.index t a * S1024x512.size a + S1024x512.size a := by
  show i ∈ ((View.whole main_v2_0).slice (win0_1.rect t)).set ↔ _
  rw [View.set_slice_whole, Rect.mem_set_unit]
  exact Iff.rfl

/-- Row `r` lies in the block of point `r / 1024`: the blocks tile the array. -/
theorem cover1 (i : S16384x512.Idx) : ∃ t : Fin cfg0.N, (cfg0.win 1).flush t = true ∧ i ∈ ((cfg0.win 1).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx1 t
  have ht : t.val = (i 0).val / 1024 := rfl
  refine ⟨t, flush0_1 t, ?_⟩
  rw [mem_blk1]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 512 ≤ (i 1).val ∧ (i 1).val < win0_1.index t (1 : Fin 2) * 512 + 512; omega

theorem final1 (c : Dev nD) : (dats m 0 c).arrAt 1 cfg0.N = mapArr kQian (V m c main_v1) :=
  (dats m 0 c).arrAt_eq_of_cover 1 (mapArr kQian (V m c main_v1)) (fun t _ => flushed1 m c t) cover1

/-- The restored result of window 1. -/
theorem tail1 (c : Dev nD) : (Pipeline.afterTail₀ cfgs (dats m) 0 (V0 m) [hostOps1] c main_v3 : S64x256x512.Idx → EReal)
    = shapeCast S64x256x512 ((dats m 0 c).arrAt 1 cfg0.N) Facts₀.shapeCasts_S16384x512_S64x256x512 := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 1
  funext i
  exact congrArg (fun a : S16384x512.Idx → EReal => shapeCast S64x256x512 a Facts₀.shapeCasts_S16384x512_S64x256x512 i) e

theorem res1 (c : Dev nD) : (Pipeline.afterTail₀ cfgs (dats m) 0 (V0 m) [hostOps1] c main_v3 : S64x256x512.Idx → EReal)
    = through Facts₀.shapeCasts_S64x256x512_S8388608 Facts₀.shapeCasts_S8388608_S16384x512 Facts₀.shapeCasts_S16384x512_S64x256x512
        kQian (m ((c : Thread nD τ).loc main_arg0)) := by
  rw [tail1, final1, V_v1]; rfl

/-! ### Output window 2 -/

theorem out2 (x0 : Vec Ideal S1024x512 .f32) : out0_2 (F := Ideal) x0 = fun j => kKun (x0 j) := by
  unfold out0_2; rw [View.canon_unit_zero hz, View.ld_unit_zero hz, pay5]

theorem idx2 : ∀ t : Fin cfg0.N, win0_2.index t (0 : Fin 2) = t.val ∧ win0_2.index t (1 : Fin 2) = 0 :=
  (by decide +kernel : ∀ t : Fin grid0.N, _)

/-- What point `t` writes back is block `t` of the scalar function applied to the whole re-laid input: the output's
    block and the input's block sit at the same rows. -/
theorem flushed2 (c : Dev nD) (t : Fin cfg0.N) :
    (dats m 0 c).flushed 2 t = ((cfg0.win 2).blk t).view.read (Elt Ideal) (mapArr kKun (V m c main_v1)) := by
  show (cfg0.win 2).cut (grid0.coords t) ((dats m 0 c).after 2 t) = _
  rw [after0_2, out2]
  obtain ⟨a0, a1⟩ := idx0 t
  obtain ⟨b0, b1⟩ := idx2 t
  funext j
  show kKun (V m c main_v1 (((cfg0.win 0).blk t).view.emb j)) = kKun (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * (j 1).val = win0_2.index t (1 : Fin 2) * 512 + 1 * (j 1).val; omega
  rw [h0]

theorem mem_blk2 (t : Fin cfg0.N) (i : S16384x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2_1).slice (win0_2.rect t)).set ↔ _
  rw [View.set_slice_whole, Rect.mem_set_unit]
  exact Iff.rfl

/-- Row `r` lies in the block of point `r / 1024`: the blocks tile the array. -/
theorem cover2 (i : S16384x512.Idx) : ∃ t : Fin cfg0.N, (cfg0.win 2).flush t = true ∧ i ∈ ((cfg0.win 2).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx2 t
  have ht : t.val = (i 0).val / 1024 := rfl
  refine ⟨t, flush0_2 t, ?_⟩
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

theorem final2 (c : Dev nD) : (dats m 0 c).arrAt 2 cfg0.N = mapArr kKun (V m c main_v1) :=
  (dats m 0 c).arrAt_eq_of_cover 2 (mapArr kKun (V m c main_v1)) (fun t _ => flushed2 m c t) cover2

/-- The restored result of window 2. -/
theorem tail2 (c : Dev nD) : (Pipeline.afterTail₀ cfgs (dats m) 0 (V0 m) [hostOps1] c main_v4 : S64x256x512.Idx → EReal)
    = shapeCast S64x256x512 ((dats m 0 c).arrAt 2 cfg0.N) Facts₀.shapeCasts_S16384x512_S64x256x512 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 2
  funext i
  exact congrArg (fun a : S16384x512.Idx → EReal => shapeCast S64x256x512 a Facts₀.shapeCasts_S16384x512_S64x256x512 i) e

theorem res2 (c : Dev nD) : (Pipeline.afterTail₀ cfgs (dats m) 0 (V0 m) [hostOps1] c main_v4 : S64x256x512.Idx → EReal)
    = through Facts₀.shapeCasts_S64x256x512_S8388608 Facts₀.shapeCasts_S8388608_S16384x512 Facts₀.shapeCasts_S16384x512_S64x256x512
        kKun (m ((c : Thread nD τ).loc main_arg0)) := by
  rw [tail2, final2, V_v1]; rfl

/-! ### Output window 3 -/

theorem out3 (x0 : Vec Ideal S1024x512 .f32) : out0_3 (F := Ideal) x0 = fun j => kZhen (x0 j) := by
  unfold out0_3; rw [View.canon_unit_zero hz, View.ld_unit_zero hz, pay10]

theorem idx3 : ∀ t : Fin cfg0.N, win0_3.index t (0 : Fin 2) = t.val ∧ win0_3.index t (1 : Fin 2) = 0 :=
  (by decide +kernel : ∀ t : Fin grid0.N, _)

/-- What point `t` writes back is block `t` of the scalar function applied to the whole re-laid input: the output's
    block and the input's block sit at the same rows. -/
theorem flushed3 (c : Dev nD) (t : Fin cfg0.N) :
    (dats m 0 c).flushed 3 t = ((cfg0.win 3).blk t).view.read (Elt Ideal) (mapArr kZhen (V m c main_v1)) := by
  show (cfg0.win 3).cut (grid0.coords t) ((dats m 0 c).after 3 t) = _
  rw [after0_3, out3]
  obtain ⟨a0, a1⟩ := idx0 t
  obtain ⟨b0, b1⟩ := idx3 t
  funext j
  show kZhen (V m c main_v1 (((cfg0.win 0).blk t).view.emb j)) = kZhen (V m c main_v1 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 512 + 1 * (j 1).val = win0_3.index t (1 : Fin 2) * 512 + 1 * (j 1).val; omega
  rw [h0]

theorem mem_blk3 (t : Fin cfg0.N) (i : S16384x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2_2).slice (win0_3.rect t)).set ↔ _
  rw [View.set_slice_whole, Rect.mem_set_unit]
  exact Iff.rfl

/-- Row `r` lies in the block of point `r / 1024`: the blocks tile the array. -/
theorem cover3 (i : S16384x512.Idx) : ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx3 t
  have ht : t.val = (i 0).val / 1024 := rfl
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

theorem final3 (c : Dev nD) : (dats m 0 c).arrAt 3 cfg0.N = mapArr kZhen (V m c main_v1) :=
  (dats m 0 c).arrAt_eq_of_cover 3 (mapArr kZhen (V m c main_v1)) (fun t _ => flushed3 m c t) cover3

/-- The restored result of window 3. -/
theorem tail3 (c : Dev nD) : (Pipeline.afterTail₀ cfgs (dats m) 0 (V0 m) [hostOps1] c main_v5 : S64x256x512.Idx → EReal)
    = shapeCast S64x256x512 ((dats m 0 c).arrAt 3 cfg0.N) Facts₀.shapeCasts_S16384x512_S64x256x512 := by
  unfold Pipeline.afterTail₀
  show StableHlo.after hostOps1 _ (Proc.devRef .tc main_v5) = _
  after_results
  have e := Pipeline.withArrays_arr spec0 launch0.win.arr_inj c (V0 m c) (fun w => (dats m 0 c).arrAt w cfg0.N) 3
  funext i
  exact congrArg (fun a : S16384x512.Idx → EReal => shapeCast S64x256x512 a Facts₀.shapeCasts_S16384x512_S64x256x512 i) e

theorem res3 (c : Dev nD) : (Pipeline.afterTail₀ cfgs (dats m) 0 (V0 m) [hostOps1] c main_v5 : S64x256x512.Idx → EReal)
    = through Facts₀.shapeCasts_S64x256x512_S8388608 Facts₀.shapeCasts_S8388608_S16384x512 Facts₀.shapeCasts_S16384x512_S64x256x512
        kZhen (m ((c : Thread nD τ).loc main_arg0)) := by
  rw [tail3, final3, V_v1]; rfl

/-! ### Output window 4 -/

theorem out4 (x0 : Vec Ideal S1024x512 .f32) : out0_4 (F := Ideal) x0 = fun j => kGen (x0 j) := by
  unfold out0_4; rw [View.canon_unit_zero hz, View.ld_unit_zero hz, pay1]

theorem idx4 : ∀ t : Fin cfg0.N, win0_4.index t (0 : Fin 2) = t.val ∧ win0_4.index t (1 : Fin 2) = 0 :=
  (by decide +kernel : ∀ t : Fin grid0.N, _)

/-- What point `t` writes back is block `t` of the scalar function applied to the whole re-laid input: the output's
    block and the input's block sit at the same rows. -/
theorem flushed4 (c : Dev nD) (t : Fin cfg0.N) :
    (dats m 0 c).flushed 4 t = ((cfg0.win 4).blk t).view.read (Elt Ideal) (mapArr kGen (V m c main_v1)) := by
  show (cfg0.win 4).cut (grid0.coords t) ((dats m 0 c).after 4 t) = _
  rw [after0_4, out4]
  obtain ⟨a0, a1⟩ := idx0 t
  obtain ⟨b0, b1⟩ := idx4 t
  funext j
  show kGen (V m c main_v1 (((cfg0.win 0).blk t).view.emb j)) = kGen (V m c main_v1 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 512 + 1 * (j 1).val = win0_4.index t (1 : Fin 2) * 512 + 1 * (j 1).val; omega
  rw [h0]

theorem mem_blk4 (t : Fin cfg0.N) (i : S16384x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v2_3).slice (win0_4.rect t)).set ↔ _
  rw [View.set_slice_whole, Rect.mem_set_unit]
  exact Iff.rfl

/-- Row `r` lies in the block of point `r / 1024`: the blocks tile the array. -/
theorem cover4 (i : S16384x512.Idx) : ∃ t : Fin cfg0.N, (cfg0.win 4).flush t = true ∧ i ∈ ((cfg0.win 4).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx4 t
  have ht : t.val = (i 0).val / 1024 := rfl
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

theorem final4 (c : Dev nD) : (dats m 0 c).arrAt 4 cfg0.N = mapArr kGen (V m c main_v1) :=
  (dats m 0 c).arrAt_eq_of_cover 4 (mapArr kGen (V m c main_v1)) (fun t _ => flushed4 m c t) cover4

/-- The restored result of window 4. -/
theorem tail4 (c : Dev nD) : (Pipeline.afterTail₀ cfgs (dats m) 0 (V0 m) [hostOps1] c main_v6 : S64x256x512.Idx → EReal)
    = shapeCast S64x256x512 ((dats m 0 c).arrAt 4 cfg0.N) Facts₀.shapeCasts_S16384x512_S64x256x512 := by
  unfold Pipeline.afterTail₀
  show StableHlo.after hostOps1 _ (Proc.devRef .tc main_v6) = _
  after_results
  have e := Pipeline.withArrays_arr spec0 launch0.win.arr_inj c (V0 m c) (fun w => (dats m 0 c).arrAt w cfg0.N) 4
  funext i
  exact congrArg (fun a : S16384x512.Idx → EReal => shapeCast S64x256x512 a Facts₀.shapeCasts_S16384x512_S64x256x512 i) e

theorem res4 (c : Dev nD) : (Pipeline.afterTail₀ cfgs (dats m) 0 (V0 m) [hostOps1] c main_v6 : S64x256x512.Idx → EReal)
    = through Facts₀.shapeCasts_S64x256x512_S8388608 Facts₀.shapeCasts_S8388608_S16384x512 Facts₀.shapeCasts_S16384x512_S64x256x512
        kGen (m ((c : Thread nD τ).loc main_arg0)) := by
  rw [tail4, final4, V_v1]; rfl

/-! ### Output window 5 -/

theorem out5 (x0 : Vec Ideal S1024x512 .f32) : out0_5 (F := Ideal) x0 = fun j => kKan (x0 j) := by
  unfold out0_5; rw [View.canon_unit_zero hz, View.ld_unit_zero hz, pay6]

theorem idx5 : ∀ t : Fin cfg0.N, win0_5.index t (0 : Fin 2) = t.val ∧ win0_5.index t (1 : Fin 2) = 0 :=
  (by decide +kernel : ∀ t : Fin grid0.N, _)

/-- What point `t` writes back is block `t` of the scalar function applied to the whole re-laid input: the output's
    block and the input's block sit at the same rows. -/
theorem flushed5 (c : Dev nD) (t : Fin cfg0.N) :
    (dats m 0 c).flushed 5 t = ((cfg0.win 5).blk t).view.read (Elt Ideal) (mapArr kKan (V m c main_v1)) := by
  show (cfg0.win 5).cut (grid0.coords t) ((dats m 0 c).after 5 t) = _
  rw [after0_5, out5]
  obtain ⟨a0, a1⟩ := idx0 t
  obtain ⟨b0, b1⟩ := idx5 t
  funext j
  show kKan (V m c main_v1 (((cfg0.win 0).blk t).view.emb j)) = kKan (V m c main_v1 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 512 + 1 * (j 1).val = win0_5.index t (1 : Fin 2) * 512 + 1 * (j 1).val; omega
  rw [h0]

theorem mem_blk5 (t : Fin cfg0.N) (i : S16384x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v2_4).slice (win0_5.rect t)).set ↔ _
  rw [View.set_slice_whole, Rect.mem_set_unit]
  exact Iff.rfl

/-- Row `r` lies in the block of point `r / 1024`: the blocks tile the array. -/
theorem cover5 (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx5 t
  have ht : t.val = (i 0).val / 1024 := rfl
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

theorem final5 (c : Dev nD) : (dats m 0 c).arrAt 5 cfg0.N = mapArr kKan (V m c main_v1) :=
  (dats m 0 c).arrAt_eq_of_cover 5 (mapArr kKan (V m c main_v1)) (fun t _ => flushed5 m c t) cover5

/-- The restored result of window 5. -/
theorem tail5 (c : Dev nD) : (Pipeline.afterTail₀ cfgs (dats m) 0 (V0 m) [hostOps1] c main_v7 : S64x256x512.Idx → EReal)
    = shapeCast S64x256x512 ((dats m 0 c).arrAt 5 cfg0.N) Facts₀.shapeCasts_S16384x512_S64x256x512 := by
  unfold Pipeline.afterTail₀
  show StableHlo.after hostOps1 _ (Proc.devRef .tc main_v7) = _
  after_results
  have e := Pipeline.withArrays_arr spec0 launch0.win.arr_inj c (V0 m c) (fun w => (dats m 0 c).arrAt w cfg0.N) 5
  funext i
  exact congrArg (fun a : S16384x512.Idx → EReal => shapeCast S64x256x512 a Facts₀.shapeCasts_S16384x512_S64x256x512 i) e

theorem res5 (c : Dev nD) : (Pipeline.afterTail₀ cfgs (dats m) 0 (V0 m) [hostOps1] c main_v7 : S64x256x512.Idx → EReal)
    = through Facts₀.shapeCasts_S64x256x512_S8388608 Facts₀.shapeCasts_S8388608_S16384x512 Facts₀.shapeCasts_S16384x512_S64x256x512
        kKan (m ((c : Thread nD τ).loc main_arg0)) := by
  rw [tail5, final5, V_v1]; rfl

/-! ### Output window 6 -/

theorem out6 (x0 : Vec Ideal S1024x512 .f32) : out0_6 (F := Ideal) x0 = fun j => kLi (x0 j) := by
  unfold out0_6; rw [View.canon_unit_zero hz, View.ld_unit_zero hz, pay12]

theorem idx6 : ∀ t : Fin cfg0.N, win0_6.index t (0 : Fin 2) = t.val ∧ win0_6.index t (1 : Fin 2) = 0 :=
  (by decide +kernel : ∀ t : Fin grid0.N, _)

/-- What point `t` writes back is block `t` of the scalar function applied to the whole re-laid input: the output's
    block and the input's block sit at the same rows. -/
theorem flushed6 (c : Dev nD) (t : Fin cfg0.N) :
    (dats m 0 c).flushed 6 t = ((cfg0.win 6).blk t).view.read (Elt Ideal) (mapArr kLi (V m c main_v1)) := by
  show (cfg0.win 6).cut (grid0.coords t) ((dats m 0 c).after 6 t) = _
  rw [after0_6, out6]
  obtain ⟨a0, a1⟩ := idx0 t
  obtain ⟨b0, b1⟩ := idx6 t
  funext j
  show kLi (V m c main_v1 (((cfg0.win 0).blk t).view.emb j)) = kLi (V m c main_v1 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 1024 + 1 * (j 0).val = win0_6.index t (0 : Fin 2) * 1024 + 1 * (j 0).val; omega
    | ⟨1, _⟩ => show win0_0.index t (1 : Fin 2) * 512 + 1 * (j 1).val = win0_6.index t (1 : Fin 2) * 512 + 1 * (j 1).val; omega
  rw [h0]

theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v2_5).slice (win0_6.rect t)).set ↔ _
  rw [View.set_slice_whole, Rect.mem_set_unit]
  exact Iff.rfl

/-- Row `r` lies in the block of point `r / 1024`: the blocks tile the array. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx6 t
  have ht : t.val = (i 0).val / 1024 := rfl
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

theorem final6 (c : Dev nD) : (dats m 0 c).arrAt 6 cfg0.N = mapArr kLi (V m c main_v1) :=
  (dats m 0 c).arrAt_eq_of_cover 6 (mapArr kLi (V m c main_v1)) (fun t _ => flushed6 m c t) cover6

/-- The restored result of window 6. -/
theorem tail6 (c : Dev nD) : (Pipeline.afterTail₀ cfgs (dats m) 0 (V0 m) [hostOps1] c main_v8 : S64x256x512.Idx → EReal)
    = shapeCast S64x256x512 ((dats m 0 c).arrAt 6 cfg0.N) Facts₀.shapeCasts_S16384x512_S64x256x512 := by
  unfold Pipeline.afterTail₀
  show StableHlo.after hostOps1 _ (Proc.devRef .tc main_v8) = _
  after_results
  have e := Pipeline.withArrays_arr spec0 launch0.win.arr_inj c (V0 m c) (fun w => (dats m 0 c).arrAt w cfg0.N) 6
  funext i
  exact congrArg (fun a : S16384x512.Idx → EReal => shapeCast S64x256x512 a Facts₀.shapeCasts_S16384x512_S64x256x512 i) e

theorem res6 (c : Dev nD) : (Pipeline.afterTail₀ cfgs (dats m) 0 (V0 m) [hostOps1] c main_v8 : S64x256x512.Idx → EReal)
    = through Facts₀.shapeCasts_S64x256x512_S8388608 Facts₀.shapeCasts_S8388608_S16384x512 Facts₀.shapeCasts_S16384x512_S64x256x512
        kLi (m ((c : Thread nD τ).loc main_arg0)) := by
  rw [tail6, final6, V_v1]; rfl

/-! ### Output window 7 -/

theorem out7 (x0 : Vec Ideal S1024x512 .f32) : out0_7 (F := Ideal) x0 = fun j => kXun (x0 j) := by
  unfold out0_7; rw [View.canon_unit_zero hz, View.ld_unit_zero hz, pay11]

theorem idx7 : ∀ t : Fin cfg0.N, win0_7.index t (0 : Fin 2) = t.val ∧ win0_7.index t (1 : Fin 2) = 0 :=
  (by decide +kernel : ∀ t : Fin grid0.N, _)

/-- What point `t` writes back is block `t` of the scalar function applied to the whole re-laid input: the output's
    block and the input's block sit at the same rows. -/
theorem flushed7 (c : Dev nD) (t : Fin cfg0.N) :
    (dats m 0 c).flushed 7 t = ((cfg0.win 7).blk t).view.read (Elt Ideal) (mapArr kXun (V m c main_v1)) := by
  show (cfg0.win 7).cut (grid0.coords t) ((dats m 0 c).after 7 t) = _
  rw [after0_7, out7]
  obtain ⟨a0, a1⟩ := idx0 t
  obtain ⟨b0, b1⟩ := idx7 t
  funext j
  show kXun (V m c main_v1 (((cfg0.win 0).blk t).view.emb j)) = kXun (V m c main_v1 (((cfg0.win 7).blk t).view.emb j))
  have h0 : ((cfg0.win 0).blk t).view.emb j = ((cfg0.win 7).blk t).view.emb j := by
    funext a; apply Fin.ext
    match a with
    | ⟨0, _⟩ => show win0_0.index t (0 : Fin 2) * 1024 + 1 * (j 0).val = win0_7.index t (0 : Fin 2) * 1024 + 1 * (j 0).val; omega
    | ⟨1, _⟩ => show win0_0.index t (1 : Fin 2) * 512 + 1 * (j 1).val = win0_7.index t (1 : Fin 2) * 512 + 1 * (j 1).val; omega
  rw [h0]

theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v2_6).slice (win0_7.rect t)).set ↔ _
  rw [View.set_slice_whole, Rect.mem_set_unit]
  exact Iff.rfl

/-- Row `r` lies in the block of point `r / 1024`: the blocks tile the array. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx7 t
  have ht : t.val = (i 0).val / 1024 := rfl
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

theorem final7 (c : Dev nD) : (dats m 0 c).arrAt 7 cfg0.N = mapArr kXun (V m c main_v1) :=
  (dats m 0 c).arrAt_eq_of_cover 7 (mapArr kXun (V m c main_v1)) (fun t _ => flushed7 m c t) cover7

/-- The restored result of window 7. -/
theorem tail7 (c : Dev nD) : (Pipeline.afterTail₀ cfgs (dats m) 0 (V0 m) [hostOps1] c main_v9 : S64x256x512.Idx → EReal)
    = shapeCast S64x256x512 ((dats m 0 c).arrAt 7 cfg0.N) Facts₀.shapeCasts_S16384x512_S64x256x512 := by
  unfold Pipeline.afterTail₀
  show StableHlo.after hostOps1 _ (Proc.devRef .tc main_v9) = _
  after_results
  have e := Pipeline.withArrays_arr spec0 launch0.win.arr_inj c (V0 m c) (fun w => (dats m 0 c).arrAt w cfg0.N) 7
  funext i
  exact congrArg (fun a : S16384x512.Idx → EReal => shapeCast S64x256x512 a Facts₀.shapeCasts_S16384x512_S64x256x512 i) e

theorem res7 (c : Dev nD) : (Pipeline.afterTail₀ cfgs (dats m) 0 (V0 m) [hostOps1] c main_v9 : S64x256x512.Idx → EReal)
    = through Facts₀.shapeCasts_S64x256x512_S8388608 Facts₀.shapeCasts_S8388608_S16384x512 Facts₀.shapeCasts_S16384x512_S64x256x512
        kXun (m ((c : Thread nD τ).loc main_arg0)) := by
  rw [tail7, final7, V_v1]; rfl

/-! ### Output window 8 -/

theorem out8 (x0 : Vec Ideal S1024x512 .f32) : out0_8 (F := Ideal) x0 = fun j => kDui (x0 j) := by
  unfold out0_8; rw [View.canon_unit_zero hz, View.ld_unit_zero hz, pay9]

theorem idx8 : ∀ t : Fin cfg0.N, win0_8.index t (0 : Fin 2) = t.val ∧ win0_8.index t (1 : Fin 2) = 0 :=
  (by decide +kernel : ∀ t : Fin grid0.N, _)

/-- What point `t` writes back is block `t` of the scalar function applied to the whole re-laid input: the output's
    block and the input's block sit at the same rows. -/
theorem flushed8 (c : Dev nD) (t : Fin cfg0.N) :
    (dats m 0 c).flushed 8 t = ((cfg0.win 8).blk t).view.read (Elt Ideal) (mapArr kDui (V m c main_v1)) := by
  show (cfg0.win 8).cut (grid0.coords t) ((dats m 0 c).after 8 t) = _
  rw [after0_8, out8]
  obtain ⟨a0, a1⟩ := idx0 t
  obtain ⟨b0, b1⟩ := idx8 t
  funext j
  show kDui (V m c main_v1 (((cfg0.win 0).blk t).view.emb j)) = kDui (V m c main_v1 (((cfg0.win 8).blk t).view.emb j))
  have h0 : ((cfg0.win 0).blk t).view.emb j = ((cfg0.win 8).blk t).view.emb j := by
    funext a; apply Fin.ext
    match a with
    | ⟨0, _⟩ => show win0_0.index t (0 : Fin 2) * 1024 + 1 * (j 0).val = win0_8.index t (0 : Fin 2) * 1024 + 1 * (j 0).val; omega
    | ⟨1, _⟩ => show win0_0.index t (1 : Fin 2) * 512 + 1 * (j 1).val = win0_8.index t (1 : Fin 2) * 512 + 1 * (j 1).val; omega
  rw [h0]

theorem mem_blk8 (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v2_7).slice (win0_8.rect t)).set ↔ _
  rw [View.set_slice_whole, Rect.mem_set_unit]
  exact Iff.rfl

/-- Row `r` lies in the block of point `r / 1024`: the blocks tile the array. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨b0, b1⟩ := idx8 t
  have ht : t.val = (i 0).val / 1024 := rfl
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

theorem final8 (c : Dev nD) : (dats m 0 c).arrAt 8 cfg0.N = mapArr kDui (V m c main_v1) :=
  (dats m 0 c).arrAt_eq_of_cover 8 (mapArr kDui (V m c main_v1)) (fun t _ => flushed8 m c t) cover8

/-- The restored result of window 8. -/
theorem tail8 (c : Dev nD) : (Pipeline.afterTail₀ cfgs (dats m) 0 (V0 m) [hostOps1] c main_v10 : S64x256x512.Idx → EReal)
    = shapeCast S64x256x512 ((dats m 0 c).arrAt 8 cfg0.N) Facts₀.shapeCasts_S16384x512_S64x256x512 := by
  unfold Pipeline.afterTail₀
  show StableHlo.after hostOps1 _ (Proc.devRef .tc main_v10) = _
  after_results
  have e := Pipeline.withArrays_arr spec0 launch0.win.arr_inj c (V0 m c) (fun w => (dats m 0 c).arrAt w cfg0.N) 8
  funext i
  exact congrArg (fun a : S16384x512.Idx → EReal => shapeCast S64x256x512 a Facts₀.shapeCasts_S16384x512_S64x256x512 i) e

theorem res8 (c : Dev nD) : (Pipeline.afterTail₀ cfgs (dats m) 0 (V0 m) [hostOps1] c main_v10 : S64x256x512.Idx → EReal)
    = through Facts₀.shapeCasts_S64x256x512_S8388608 Facts₀.shapeCasts_S8388608_S16384x512 Facts₀.shapeCasts_S16384x512_S64x256x512
        kDui (m ((c : Thread nD τ).loc main_arg0)) := by
  rw [tail8, final8, V_v1]; rfl

/-! ## The run, with every result named -/

/-- Every weakly fair execution terminates with each result the scalar function of its output applied to every
    element of the input (through the casts), and the input unchanged. -/
theorem run : θ_run defs (onTc (τ := τ) (main (F := Ideal))) ⟨m, fun _ => 0, ρ⟩ fun r => ∀ c : Dev nD,
      r.2.mem ((c.tc : Thread nD τ).loc main_v10) = through Facts₀.shapeCasts_S64x256x512_S8388608 Facts₀.shapeCasts_S8388608_S16384x512 Facts₀.shapeCasts_S16384x512_S64x256x512 kDui (m ((c.tc : Thread nD τ).loc main_arg0))
      ∧       r.2.mem ((c.tc : Thread nD τ).loc main_v6) = through Facts₀.shapeCasts_S64x256x512_S8388608 Facts₀.shapeCasts_S8388608_S16384x512 Facts₀.shapeCasts_S16384x512_S64x256x512 kGen (m ((c.tc : Thread nD τ).loc main_arg0))
      ∧       r.2.mem ((c.tc : Thread nD τ).loc main_v7) = through Facts₀.shapeCasts_S64x256x512_S8388608 Facts₀.shapeCasts_S8388608_S16384x512 Facts₀.shapeCasts_S16384x512_S64x256x512 kKan (m ((c.tc : Thread nD τ).loc main_arg0))
      ∧       r.2.mem ((c.tc : Thread nD τ).loc main_v4) = through Facts₀.shapeCasts_S64x256x512_S8388608 Facts₀.shapeCasts_S8388608_S16384x512 Facts₀.shapeCasts_S16384x512_S64x256x512 kKun (m ((c.tc : Thread nD τ).loc main_arg0))
      ∧       r.2.mem ((c.tc : Thread nD τ).loc main_v8) = through Facts₀.shapeCasts_S64x256x512_S8388608 Facts₀.shapeCasts_S8388608_S16384x512 Facts₀.shapeCasts_S16384x512_S64x256x512 kLi (m ((c.tc : Thread nD τ).loc main_arg0))
      ∧       r.2.mem ((c.tc : Thread nD τ).loc main_v3) = through Facts₀.shapeCasts_S64x256x512_S8388608 Facts₀.shapeCasts_S8388608_S16384x512 Facts₀.shapeCasts_S16384x512_S64x256x512 kQian (m ((c.tc : Thread nD τ).loc main_arg0))
      ∧       r.2.mem ((c.tc : Thread nD τ).loc main_v9) = through Facts₀.shapeCasts_S64x256x512_S8388608 Facts₀.shapeCasts_S8388608_S16384x512 Facts₀.shapeCasts_S16384x512_S64x256x512 kXun (m ((c.tc : Thread nD τ).loc main_arg0))
      ∧       r.2.mem ((c.tc : Thread nD τ).loc main_v5) = through Facts₀.shapeCasts_S64x256x512_S8388608 Facts₀.shapeCasts_S8388608_S16384x512 Facts₀.shapeCasts_S16384x512_S64x256x512 kZhen (m ((c.tc : Thread nD τ).loc main_arg0))
      ∧ r.2.mem ((c.tc : Thread nD τ).loc main_arg0) = m ((c.tc : Thread nD τ).loc main_arg0) :=
  (θ_run defs _ _).mono (fun r h c => ⟨
      ((h c).2 main_v10 (Pipeline.mem_restRefs_of main_v10 (by decide) (by decide))).trans (res8 m c),
      ((h c).2 main_v6 (Pipeline.mem_restRefs_of main_v6 (by decide) (by decide))).trans (res4 m c),
      ((h c).2 main_v7 (Pipeline.mem_restRefs_of main_v7 (by decide) (by decide))).trans (res5 m c),
      ((h c).2 main_v4 (Pipeline.mem_restRefs_of main_v4 (by decide) (by decide))).trans (res2 m c),
      ((h c).2 main_v8 (Pipeline.mem_restRefs_of main_v8 (by decide) (by decide))).trans (res6 m c),
      ((h c).2 main_v3 (Pipeline.mem_restRefs_of main_v3 (by decide) (by decide))).trans (res1 m c),
      ((h c).2 main_v9 (Pipeline.mem_restRefs_of main_v9 (by decide) (by decide))).trans (res7 m c),
      ((h c).2 main_v5 (Pipeline.mem_restRefs_of main_v5 (by decide) (by decide))).trans (res3 m c),
      ((h c).2 main_arg0 (Pipeline.mem_restRefs_of main_arg0 (by decide) (by decide))).trans (W_main_arg0 m (dats m) c)⟩)
    (run_main m ρ)

end Cert.KernelIdeal.Arrays

end
-- ==== Proof.ReferencePayloads.lean ====
/-
  The idealized reference's stored values, element by element: each store of its body writes, at every index of
  the block, one scalar function of the loaded input at that index (the functions of Proof/Scalars.lean in the
  reference's arrangement: tanh, the logistic function and exp (min x 0) applied directly).
-/
import proofs.«126102_g2000006855445757_pallasbulk_964_2_alg».proof.Proof.Gen.ReferenceIdeal.Skeleton
import proofs.«126102_g2000006855445757_pallasbulk_964_2_alg».proof.Proof.Scalars
import Idealize.ShloMosaic.Lib.Pipeline.Value

noncomputable section

namespace Cert.ReferenceIdeal.Pointwise

open Idealize.ShloMosaic Cert.ReferenceIdeal Cert.ReferenceIdeal.Gen Cert.Act

variable [Facts]

/-- The loaded block, cast to its own shape, is itself. -/
theorem pay3 (x : Vec Ideal S512x512 .f32) : k0_pay3 (F := Ideal) x = x := shapeCast_self x _

/-- The exponential-linear unit shared by two outputs. -/
theorem pay4 (x : Vec Ideal S512x512 .f32) : k0_pay4 (F := Ideal) x = fun j => rElu (x j) := by
  unfold k0_pay4; rw [pay3]; rfl

/-- The hyperbolic-tangent output. -/
theorem pay5 (x : Vec Ideal S512x512 .f32) : k0_pay5 (F := Ideal) x = fun j => rKan (x j) := by
  unfold k0_pay5; rw [pay3]; rfl

theorem pay6 (x : Vec Ideal S512x512 .f32) : k0_pay6 (F := Ideal) x = fun j => rQian (x j) := by
  unfold k0_pay6; rw [pay4, pay5]; rfl

theorem pay7 (x : Vec Ideal S512x512 .f32) : k0_pay7 (F := Ideal) x = fun j => rDui (x j) := by
  unfold k0_pay7; rw [pay3, pay4]; rfl

/-- The sigmoid output. -/
theorem pay8 (x : Vec Ideal S512x512 .f32) : k0_pay8 (F := Ideal) x = fun j => rKun (x j) := by
  unfold k0_pay8; rw [pay3]; rfl

theorem pay9 (x : Vec Ideal S512x512 .f32) : k0_pay9 (F := Ideal) x = fun j => rZhen (x j) := by
  unfold k0_pay9; rw [pay3]; rfl

theorem pay10 (x : Vec Ideal S512x512 .f32) : k0_pay10 (F := Ideal) x = fun j => clip (x j) := by
  unfold k0_pay10; rw [pay3]; rfl

/-- The clamped error-function GELU output. -/
theorem pay11 (x : Vec Ideal S512x512 .f32) :
    k0_pay11 (F := Ideal) (k0_pay10 x) (Scalar.ofBits .f32 0x3F000000#32) = fun j => rGen (x j) := by
  rw [pay10]; rfl

theorem pay1 (x : Vec Ideal S512x512 .f32) :
    k0_pay1 (F := Ideal) (k0_pay3 x) (k0_pay12 (F := Ideal)) = fun j => rLi (x j) := by
  rw [pay3]; rfl

theorem pay2 (x : Vec Ideal S512x512 .f32) : k0_pay2 (F := Ideal) (k0_pay3 x) = fun j => rXun (x j) := by
  rw [pay3]; rfl

end Cert.ReferenceIdeal.Pointwise

end
-- ==== Proof.ReferenceArrays.lean ====
/-
  What the idealized reference's eight result arrays hold after the run. Its region applies its body to 32 blocks of
  512 rows of the re-laid input; each output's block at a point is one scalar function applied to the input's
  block at the same rows, the blocks tile the 16384 × 512 array, so each output array is that scalar function
  applied to the whole re-laid input; the lines after the region restore each to the input's shape.
-/
import proofs.«126102_g2000006855445757_pallasbulk_964_2_alg».proof.Proof.Gen.ReferenceIdeal.Frame
import proofs.«126102_g2000006855445757_pallasbulk_964_2_alg».proof.Proof.ReferencePayloads
import proofs.«126102_g2000006855445757_pallasbulk_964_2_alg».proof.Proof.Layout
import Idealize.ShloMosaic.Lib.Pipeline.Value
import Idealize.ShloMosaic.Lib.StableHlo.Run

set_option maxRecDepth 16384

noncomputable section

namespace Cert.ReferenceIdeal.Arrays

open Idealize.ShloMosaic Idealize.ShloMosaic.TcCoe Idealize.SL.Sem
open Cert.ReferenceIdeal Cert.ReferenceIdeal.Gen Cert.ReferenceIdeal.Pointwise Cert.Act
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A scalar function applied at every index of the 16384 × 512 array. -/
abbrev mapArr (f : EReal → EReal) (a : S16384x512.Idx → Elt Ideal .f32) : S16384x512.Idx → Elt Ideal .f32 :=
  fun i => f (a i)

/-- The array the region reads: the input flattened and re-laid as 16384 rows of 512. -/
theorem V_v1 (c : Dev nD) : (V m c main_v1 : S16384x512.Idx → EReal)
    = shapeCast S16384x512 (shapeCast S8388608 (m ((c : Thread nD τ).loc main_arg0)) Facts₀.shapeCasts_S64x256x512_S8388608) Facts₀.shapeCasts_S8388608_S16384x512 := by
  show StableHlo.after hostOps0 (fun b => m (c, b)) (Proc.devRef .tc main_v1) = _
  after_results
  rfl

/-- The input window's block at point `t` starts at row 512 · t, lane 0. -/
theorem idx0 : ∀ t : Fin cfg0.N, win0_0.index t (0 : Fin 2) = t.val ∧ win0_0.index t (1 : Fin 2) = 0 :=
  (by decide +kernel : ∀ t : Fin grid0.N, _)

/-! ### Output window 1 -/

theorem out1 (x0 : Vec Ideal S512x512 .f32) : out0_1 (F := Ideal) x0 = fun j => rQian (x0 j) := by
  unfold out0_1; rw [View.canon_unit_zero hz, View.ld_unit_zero hz, pay6]

theorem idx1 : ∀ t : Fin cfg0.N, win0_1.index t (0 : Fin 2) = t.val ∧ win0_1.index t (1 : Fin 2) = 0 :=
  (by decide +kernel : ∀ t : Fin grid0.N, _)

/-- What point `t` writes back is block `t` of the scalar function applied to the whole re-laid input: the output's
    block and the input's block sit at the same rows. -/
theorem flushed1 (c : Dev nD) (t : Fin cfg0.N) :
    (dats m 0 c).flushed 1 t = ((cfg0.win 1).blk t).view.read (Elt Ideal) (mapArr rQian (V m c main_v1)) := by
  show (cfg0.win 1).cut (grid0.coords t) ((dats m 0 c).after 1 t) = _
  rw [after0_1, out1]
  obtain ⟨a0, a1⟩ := idx0 t
  obtain ⟨b0, b1⟩ := idx1 t
  funext j
  show rQian (V m c main_v1 (((cfg0.win 0).blk t).view.emb j)) = rQian (V m c main_v1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 512 + 1 * (j 1).val = win0_1.index t (1 : Fin 2) * 512 + 1 * (j 1).val; omega
  rw [h0]

theorem mem_blk1 (t : Fin cfg0.N) (i : S16384x512.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v2_0).slice (win0_1.rect t)).set ↔ _
  rw [View.set_slice_whole, Rect.mem_set_unit]
  exact Iff.rfl

/-- Row `r` lies in the block of point `r / 512`: the blocks tile the array. -/
theorem cover1 (i : S16384x512.Idx) : ∃ t : Fin cfg0.N, (cfg0.win 1).flush t = true ∧ i ∈ ((cfg0.win 1).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx1 t
  have ht : t.val = (i 0).val / 512 := rfl
  refine ⟨t, flush0_1 t, ?_⟩
  rw [mem_blk1]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 512 ≤ (i 1).val ∧ (i 1).val < win0_1.index t (1 : Fin 2) * 512 + 512; omega

theorem final1 (c : Dev nD) : (dats m 0 c).arrAt 1 cfg0.N = mapArr rQian (V m c main_v1) :=
  (dats m 0 c).arrAt_eq_of_cover 1 (mapArr rQian (V m c main_v1)) (fun t _ => flushed1 m c t) cover1

/-- The restored result of window 1. -/
theorem tail1 (c : Dev nD) : (Pipeline.afterTail₀ cfgs (dats m) 0 (V0 m) [hostOps1] c main_v3 : S64x256x512.Idx → EReal)
    = shapeCast S64x256x512 ((dats m 0 c).arrAt 1 cfg0.N) Facts₀.shapeCasts_S16384x512_S64x256x512 := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 1
  funext i
  exact congrArg (fun a : S16384x512.Idx → EReal => shapeCast S64x256x512 a Facts₀.shapeCasts_S16384x512_S64x256x512 i) e

theorem res1 (c : Dev nD) : (Pipeline.afterTail₀ cfgs (dats m) 0 (V0 m) [hostOps1] c main_v3 : S64x256x512.Idx → EReal)
    = through Facts₀.shapeCasts_S64x256x512_S8388608 Facts₀.shapeCasts_S8388608_S16384x512 Facts₀.shapeCasts_S16384x512_S64x256x512
        rQian (m ((c : Thread nD τ).loc main_arg0)) := by
  rw [tail1, final1, V_v1]; rfl

/-! ### Output window 2 -/

theorem out2 (x0 : Vec Ideal S512x512 .f32) : out0_2 (F := Ideal) x0 = fun j => rKun (x0 j) := by
  unfold out0_2; rw [View.canon_unit_zero hz, View.ld_unit_zero hz, pay8]

theorem idx2 : ∀ t : Fin cfg0.N, win0_2.index t (0 : Fin 2) = t.val ∧ win0_2.index t (1 : Fin 2) = 0 :=
  (by decide +kernel : ∀ t : Fin grid0.N, _)

/-- What point `t` writes back is block `t` of the scalar function applied to the whole re-laid input: the output's
    block and the input's block sit at the same rows. -/
theorem flushed2 (c : Dev nD) (t : Fin cfg0.N) :
    (dats m 0 c).flushed 2 t = ((cfg0.win 2).blk t).view.read (Elt Ideal) (mapArr rKun (V m c main_v1)) := by
  show (cfg0.win 2).cut (grid0.coords t) ((dats m 0 c).after 2 t) = _
  rw [after0_2, out2]
  obtain ⟨a0, a1⟩ := idx0 t
  obtain ⟨b0, b1⟩ := idx2 t
  funext j
  show rKun (V m c main_v1 (((cfg0.win 0).blk t).view.emb j)) = rKun (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 512 + 1 * (j 1).val = win0_2.index t (1 : Fin 2) * 512 + 1 * (j 1).val; omega
  rw [h0]

theorem mem_blk2 (t : Fin cfg0.N) (i : S16384x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v2_1).slice (win0_2.rect t)).set ↔ _
  rw [View.set_slice_whole, Rect.mem_set_unit]
  exact Iff.rfl

/-- Row `r` lies in the block of point `r / 512`: the blocks tile the array. -/
theorem cover2 (i : S16384x512.Idx) : ∃ t : Fin cfg0.N, (cfg0.win 2).flush t = true ∧ i ∈ ((cfg0.win 2).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx2 t
  have ht : t.val = (i 0).val / 512 := rfl
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

theorem final2 (c : Dev nD) : (dats m 0 c).arrAt 2 cfg0.N = mapArr rKun (V m c main_v1) :=
  (dats m 0 c).arrAt_eq_of_cover 2 (mapArr rKun (V m c main_v1)) (fun t _ => flushed2 m c t) cover2

/-- The restored result of window 2. -/
theorem tail2 (c : Dev nD) : (Pipeline.afterTail₀ cfgs (dats m) 0 (V0 m) [hostOps1] c main_v4 : S64x256x512.Idx → EReal)
    = shapeCast S64x256x512 ((dats m 0 c).arrAt 2 cfg0.N) Facts₀.shapeCasts_S16384x512_S64x256x512 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 2
  funext i
  exact congrArg (fun a : S16384x512.Idx → EReal => shapeCast S64x256x512 a Facts₀.shapeCasts_S16384x512_S64x256x512 i) e

theorem res2 (c : Dev nD) : (Pipeline.afterTail₀ cfgs (dats m) 0 (V0 m) [hostOps1] c main_v4 : S64x256x512.Idx → EReal)
    = through Facts₀.shapeCasts_S64x256x512_S8388608 Facts₀.shapeCasts_S8388608_S16384x512 Facts₀.shapeCasts_S16384x512_S64x256x512
        rKun (m ((c : Thread nD τ).loc main_arg0)) := by
  rw [tail2, final2, V_v1]; rfl

/-! ### Output window 3 -/

theorem out3 (x0 : Vec Ideal S512x512 .f32) : out0_3 (F := Ideal) x0 = fun j => rZhen (x0 j) := by
  unfold out0_3; rw [View.canon_unit_zero hz, View.ld_unit_zero hz, pay9]

theorem idx3 : ∀ t : Fin cfg0.N, win0_3.index t (0 : Fin 2) = t.val ∧ win0_3.index t (1 : Fin 2) = 0 :=
  (by decide +kernel : ∀ t : Fin grid0.N, _)

/-- What point `t` writes back is block `t` of the scalar function applied to the whole re-laid input: the output's
    block and the input's block sit at the same rows. -/
theorem flushed3 (c : Dev nD) (t : Fin cfg0.N) :
    (dats m 0 c).flushed 3 t = ((cfg0.win 3).blk t).view.read (Elt Ideal) (mapArr rZhen (V m c main_v1)) := by
  show (cfg0.win 3).cut (grid0.coords t) ((dats m 0 c).after 3 t) = _
  rw [after0_3, out3]
  obtain ⟨a0, a1⟩ := idx0 t
  obtain ⟨b0, b1⟩ := idx3 t
  funext j
  show rZhen (V m c main_v1 (((cfg0.win 0).blk t).view.emb j)) = rZhen (V m c main_v1 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 512 + 1 * (j 1).val = win0_3.index t (1 : Fin 2) * 512 + 1 * (j 1).val; omega
  rw [h0]

theorem mem_blk3 (t : Fin cfg0.N) (i : S16384x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2_2).slice (win0_3.rect t)).set ↔ _
  rw [View.set_slice_whole, Rect.mem_set_unit]
  exact Iff.rfl

/-- Row `r` lies in the block of point `r / 512`: the blocks tile the array. -/
theorem cover3 (i : S16384x512.Idx) : ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx3 t
  have ht : t.val = (i 0).val / 512 := rfl
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

theorem final3 (c : Dev nD) : (dats m 0 c).arrAt 3 cfg0.N = mapArr rZhen (V m c main_v1) :=
  (dats m 0 c).arrAt_eq_of_cover 3 (mapArr rZhen (V m c main_v1)) (fun t _ => flushed3 m c t) cover3

/-- The restored result of window 3. -/
theorem tail3 (c : Dev nD) : (Pipeline.afterTail₀ cfgs (dats m) 0 (V0 m) [hostOps1] c main_v5 : S64x256x512.Idx → EReal)
    = shapeCast S64x256x512 ((dats m 0 c).arrAt 3 cfg0.N) Facts₀.shapeCasts_S16384x512_S64x256x512 := by
  unfold Pipeline.afterTail₀
  show StableHlo.after hostOps1 _ (Proc.devRef .tc main_v5) = _
  after_results
  have e := Pipeline.withArrays_arr spec0 launch0.win.arr_inj c (V0 m c) (fun w => (dats m 0 c).arrAt w cfg0.N) 3
  funext i
  exact congrArg (fun a : S16384x512.Idx → EReal => shapeCast S64x256x512 a Facts₀.shapeCasts_S16384x512_S64x256x512 i) e

theorem res3 (c : Dev nD) : (Pipeline.afterTail₀ cfgs (dats m) 0 (V0 m) [hostOps1] c main_v5 : S64x256x512.Idx → EReal)
    = through Facts₀.shapeCasts_S64x256x512_S8388608 Facts₀.shapeCasts_S8388608_S16384x512 Facts₀.shapeCasts_S16384x512_S64x256x512
        rZhen (m ((c : Thread nD τ).loc main_arg0)) := by
  rw [tail3, final3, V_v1]; rfl

/-! ### Output window 4 -/

theorem out4 (x0 : Vec Ideal S512x512 .f32) : out0_4 (F := Ideal) x0 = fun j => rGen (x0 j) := by
  unfold out0_4; rw [View.canon_unit_zero hz, View.ld_unit_zero hz, pay11]

theorem idx4 : ∀ t : Fin cfg0.N, win0_4.index t (0 : Fin 2) = t.val ∧ win0_4.index t (1 : Fin 2) = 0 :=
  (by decide +kernel : ∀ t : Fin grid0.N, _)

/-- What point `t` writes back is block `t` of the scalar function applied to the whole re-laid input: the output's
    block and the input's block sit at the same rows. -/
theorem flushed4 (c : Dev nD) (t : Fin cfg0.N) :
    (dats m 0 c).flushed 4 t = ((cfg0.win 4).blk t).view.read (Elt Ideal) (mapArr rGen (V m c main_v1)) := by
  show (cfg0.win 4).cut (grid0.coords t) ((dats m 0 c).after 4 t) = _
  rw [after0_4, out4]
  obtain ⟨a0, a1⟩ := idx0 t
  obtain ⟨b0, b1⟩ := idx4 t
  funext j
  show rGen (V m c main_v1 (((cfg0.win 0).blk t).view.emb j)) = rGen (V m c main_v1 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 512 + 1 * (j 1).val = win0_4.index t (1 : Fin 2) * 512 + 1 * (j 1).val; omega
  rw [h0]

theorem mem_blk4 (t : Fin cfg0.N) (i : S16384x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v2_3).slice (win0_4.rect t)).set ↔ _
  rw [View.set_slice_whole, Rect.mem_set_unit]
  exact Iff.rfl

/-- Row `r` lies in the block of point `r / 512`: the blocks tile the array. -/
theorem cover4 (i : S16384x512.Idx) : ∃ t : Fin cfg0.N, (cfg0.win 4).flush t = true ∧ i ∈ ((cfg0.win 4).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx4 t
  have ht : t.val = (i 0).val / 512 := rfl
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

theorem final4 (c : Dev nD) : (dats m 0 c).arrAt 4 cfg0.N = mapArr rGen (V m c main_v1) :=
  (dats m 0 c).arrAt_eq_of_cover 4 (mapArr rGen (V m c main_v1)) (fun t _ => flushed4 m c t) cover4

/-- The restored result of window 4. -/
theorem tail4 (c : Dev nD) : (Pipeline.afterTail₀ cfgs (dats m) 0 (V0 m) [hostOps1] c main_v6 : S64x256x512.Idx → EReal)
    = shapeCast S64x256x512 ((dats m 0 c).arrAt 4 cfg0.N) Facts₀.shapeCasts_S16384x512_S64x256x512 := by
  unfold Pipeline.afterTail₀
  show StableHlo.after hostOps1 _ (Proc.devRef .tc main_v6) = _
  after_results
  have e := Pipeline.withArrays_arr spec0 launch0.win.arr_inj c (V0 m c) (fun w => (dats m 0 c).arrAt w cfg0.N) 4
  funext i
  exact congrArg (fun a : S16384x512.Idx → EReal => shapeCast S64x256x512 a Facts₀.shapeCasts_S16384x512_S64x256x512 i) e

theorem res4 (c : Dev nD) : (Pipeline.afterTail₀ cfgs (dats m) 0 (V0 m) [hostOps1] c main_v6 : S64x256x512.Idx → EReal)
    = through Facts₀.shapeCasts_S64x256x512_S8388608 Facts₀.shapeCasts_S8388608_S16384x512 Facts₀.shapeCasts_S16384x512_S64x256x512
        rGen (m ((c : Thread nD τ).loc main_arg0)) := by
  rw [tail4, final4, V_v1]; rfl

/-! ### Output window 5 -/

theorem out5 (x0 : Vec Ideal S512x512 .f32) : out0_5 (F := Ideal) x0 = fun j => rKan (x0 j) := by
  unfold out0_5; rw [View.canon_unit_zero hz, View.ld_unit_zero hz, pay5]

theorem idx5 : ∀ t : Fin cfg0.N, win0_5.index t (0 : Fin 2) = t.val ∧ win0_5.index t (1 : Fin 2) = 0 :=
  (by decide +kernel : ∀ t : Fin grid0.N, _)

/-- What point `t` writes back is block `t` of the scalar function applied to the whole re-laid input: the output's
    block and the input's block sit at the same rows. -/
theorem flushed5 (c : Dev nD) (t : Fin cfg0.N) :
    (dats m 0 c).flushed 5 t = ((cfg0.win 5).blk t).view.read (Elt Ideal) (mapArr rKan (V m c main_v1)) := by
  show (cfg0.win 5).cut (grid0.coords t) ((dats m 0 c).after 5 t) = _
  rw [after0_5, out5]
  obtain ⟨a0, a1⟩ := idx0 t
  obtain ⟨b0, b1⟩ := idx5 t
  funext j
  show rKan (V m c main_v1 (((cfg0.win 0).blk t).view.emb j)) = rKan (V m c main_v1 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 512 + 1 * (j 1).val = win0_5.index t (1 : Fin 2) * 512 + 1 * (j 1).val; omega
  rw [h0]

theorem mem_blk5 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v2_4).slice (win0_5.rect t)).set ↔ _
  rw [View.set_slice_whole, Rect.mem_set_unit]
  exact Iff.rfl

/-- Row `r` lies in the block of point `r / 512`: the blocks tile the array. -/
theorem cover5 (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx5 t
  have ht : t.val = (i 0).val / 512 := rfl
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

theorem final5 (c : Dev nD) : (dats m 0 c).arrAt 5 cfg0.N = mapArr rKan (V m c main_v1) :=
  (dats m 0 c).arrAt_eq_of_cover 5 (mapArr rKan (V m c main_v1)) (fun t _ => flushed5 m c t) cover5

/-- The restored result of window 5. -/
theorem tail5 (c : Dev nD) : (Pipeline.afterTail₀ cfgs (dats m) 0 (V0 m) [hostOps1] c main_v7 : S64x256x512.Idx → EReal)
    = shapeCast S64x256x512 ((dats m 0 c).arrAt 5 cfg0.N) Facts₀.shapeCasts_S16384x512_S64x256x512 := by
  unfold Pipeline.afterTail₀
  show StableHlo.after hostOps1 _ (Proc.devRef .tc main_v7) = _
  after_results
  have e := Pipeline.withArrays_arr spec0 launch0.win.arr_inj c (V0 m c) (fun w => (dats m 0 c).arrAt w cfg0.N) 5
  funext i
  exact congrArg (fun a : S16384x512.Idx → EReal => shapeCast S64x256x512 a Facts₀.shapeCasts_S16384x512_S64x256x512 i) e

theorem res5 (c : Dev nD) : (Pipeline.afterTail₀ cfgs (dats m) 0 (V0 m) [hostOps1] c main_v7 : S64x256x512.Idx → EReal)
    = through Facts₀.shapeCasts_S64x256x512_S8388608 Facts₀.shapeCasts_S8388608_S16384x512 Facts₀.shapeCasts_S16384x512_S64x256x512
        rKan (m ((c : Thread nD τ).loc main_arg0)) := by
  rw [tail5, final5, V_v1]; rfl

/-! ### Output window 6 -/

theorem out6 (x0 : Vec Ideal S512x512 .f32) : out0_6 (F := Ideal) x0 = fun j => rLi (x0 j) := by
  unfold out0_6; rw [View.canon_unit_zero hz, View.ld_unit_zero hz, pay1]

theorem idx6 : ∀ t : Fin cfg0.N, win0_6.index t (0 : Fin 2) = t.val ∧ win0_6.index t (1 : Fin 2) = 0 :=
  (by decide +kernel : ∀ t : Fin grid0.N, _)

/-- What point `t` writes back is block `t` of the scalar function applied to the whole re-laid input: the output's
    block and the input's block sit at the same rows. -/
theorem flushed6 (c : Dev nD) (t : Fin cfg0.N) :
    (dats m 0 c).flushed 6 t = ((cfg0.win 6).blk t).view.read (Elt Ideal) (mapArr rLi (V m c main_v1)) := by
  show (cfg0.win 6).cut (grid0.coords t) ((dats m 0 c).after 6 t) = _
  rw [after0_6, out6]
  obtain ⟨a0, a1⟩ := idx0 t
  obtain ⟨b0, b1⟩ := idx6 t
  funext j
  show rLi (V m c main_v1 (((cfg0.win 0).blk t).view.emb j)) = rLi (V m c main_v1 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 512 + 1 * (j 0).val = win0_6.index t (0 : Fin 2) * 512 + 1 * (j 0).val; omega
    | ⟨1, _⟩ => show win0_0.index t (1 : Fin 2) * 512 + 1 * (j 1).val = win0_6.index t (1 : Fin 2) * 512 + 1 * (j 1).val; omega
  rw [h0]

theorem mem_blk6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v2_5).slice (win0_6.rect t)).set ↔ _
  rw [View.set_slice_whole, Rect.mem_set_unit]
  exact Iff.rfl

/-- Row `r` lies in the block of point `r / 512`: the blocks tile the array. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx6 t
  have ht : t.val = (i 0).val / 512 := rfl
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

theorem final6 (c : Dev nD) : (dats m 0 c).arrAt 6 cfg0.N = mapArr rLi (V m c main_v1) :=
  (dats m 0 c).arrAt_eq_of_cover 6 (mapArr rLi (V m c main_v1)) (fun t _ => flushed6 m c t) cover6

/-- The restored result of window 6. -/
theorem tail6 (c : Dev nD) : (Pipeline.afterTail₀ cfgs (dats m) 0 (V0 m) [hostOps1] c main_v8 : S64x256x512.Idx → EReal)
    = shapeCast S64x256x512 ((dats m 0 c).arrAt 6 cfg0.N) Facts₀.shapeCasts_S16384x512_S64x256x512 := by
  unfold Pipeline.afterTail₀
  show StableHlo.after hostOps1 _ (Proc.devRef .tc main_v8) = _
  after_results
  have e := Pipeline.withArrays_arr spec0 launch0.win.arr_inj c (V0 m c) (fun w => (dats m 0 c).arrAt w cfg0.N) 6
  funext i
  exact congrArg (fun a : S16384x512.Idx → EReal => shapeCast S64x256x512 a Facts₀.shapeCasts_S16384x512_S64x256x512 i) e

theorem res6 (c : Dev nD) : (Pipeline.afterTail₀ cfgs (dats m) 0 (V0 m) [hostOps1] c main_v8 : S64x256x512.Idx → EReal)
    = through Facts₀.shapeCasts_S64x256x512_S8388608 Facts₀.shapeCasts_S8388608_S16384x512 Facts₀.shapeCasts_S16384x512_S64x256x512
        rLi (m ((c : Thread nD τ).loc main_arg0)) := by
  rw [tail6, final6, V_v1]; rfl

/-! ### Output window 7 -/

theorem out7 (x0 : Vec Ideal S512x512 .f32) : out0_7 (F := Ideal) x0 = fun j => rXun (x0 j) := by
  unfold out0_7; rw [View.canon_unit_zero hz, View.ld_unit_zero hz, pay2]

theorem idx7 : ∀ t : Fin cfg0.N, win0_7.index t (0 : Fin 2) = t.val ∧ win0_7.index t (1 : Fin 2) = 0 :=
  (by decide +kernel : ∀ t : Fin grid0.N, _)

/-- What point `t` writes back is block `t` of the scalar function applied to the whole re-laid input: the output's
    block and the input's block sit at the same rows. -/
theorem flushed7 (c : Dev nD) (t : Fin cfg0.N) :
    (dats m 0 c).flushed 7 t = ((cfg0.win 7).blk t).view.read (Elt Ideal) (mapArr rXun (V m c main_v1)) := by
  show (cfg0.win 7).cut (grid0.coords t) ((dats m 0 c).after 7 t) = _
  rw [after0_7, out7]
  obtain ⟨a0, a1⟩ := idx0 t
  obtain ⟨b0, b1⟩ := idx7 t
  funext j
  show rXun (V m c main_v1 (((cfg0.win 0).blk t).view.emb j)) = rXun (V m c main_v1 (((cfg0.win 7).blk t).view.emb j))
  have h0 : ((cfg0.win 0).blk t).view.emb j = ((cfg0.win 7).blk t).view.emb j := by
    funext a; apply Fin.ext
    match a with
    | ⟨0, _⟩ => show win0_0.index t (0 : Fin 2) * 512 + 1 * (j 0).val = win0_7.index t (0 : Fin 2) * 512 + 1 * (j 0).val; omega
    | ⟨1, _⟩ => show win0_0.index t (1 : Fin 2) * 512 + 1 * (j 1).val = win0_7.index t (1 : Fin 2) * 512 + 1 * (j 1).val; omega
  rw [h0]

theorem mem_blk7 (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v2_6).slice (win0_7.rect t)).set ↔ _
  rw [View.set_slice_whole, Rect.mem_set_unit]
  exact Iff.rfl

/-- Row `r` lies in the block of point `r / 512`: the blocks tile the array. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx7 t
  have ht : t.val = (i 0).val / 512 := rfl
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

theorem final7 (c : Dev nD) : (dats m 0 c).arrAt 7 cfg0.N = mapArr rXun (V m c main_v1) :=
  (dats m 0 c).arrAt_eq_of_cover 7 (mapArr rXun (V m c main_v1)) (fun t _ => flushed7 m c t) cover7

/-- The restored result of window 7. -/
theorem tail7 (c : Dev nD) : (Pipeline.afterTail₀ cfgs (dats m) 0 (V0 m) [hostOps1] c main_v9 : S64x256x512.Idx → EReal)
    = shapeCast S64x256x512 ((dats m 0 c).arrAt 7 cfg0.N) Facts₀.shapeCasts_S16384x512_S64x256x512 := by
  unfold Pipeline.afterTail₀
  show StableHlo.after hostOps1 _ (Proc.devRef .tc main_v9) = _
  after_results
  have e := Pipeline.withArrays_arr spec0 launch0.win.arr_inj c (V0 m c) (fun w => (dats m 0 c).arrAt w cfg0.N) 7
  funext i
  exact congrArg (fun a : S16384x512.Idx → EReal => shapeCast S64x256x512 a Facts₀.shapeCasts_S16384x512_S64x256x512 i) e

theorem res7 (c : Dev nD) : (Pipeline.afterTail₀ cfgs (dats m) 0 (V0 m) [hostOps1] c main_v9 : S64x256x512.Idx → EReal)
    = through Facts₀.shapeCasts_S64x256x512_S8388608 Facts₀.shapeCasts_S8388608_S16384x512 Facts₀.shapeCasts_S16384x512_S64x256x512
        rXun (m ((c : Thread nD τ).loc main_arg0)) := by
  rw [tail7, final7, V_v1]; rfl

/-! ### Output window 8 -/

theorem out8 (x0 : Vec Ideal S512x512 .f32) : out0_8 (F := Ideal) x0 = fun j => rDui (x0 j) := by
  unfold out0_8; rw [View.canon_unit_zero hz, View.ld_unit_zero hz, pay7]

theorem idx8 : ∀ t : Fin cfg0.N, win0_8.index t (0 : Fin 2) = t.val ∧ win0_8.index t (1 : Fin 2) = 0 :=
  (by decide +kernel : ∀ t : Fin grid0.N, _)

/-- What point `t` writes back is block `t` of the scalar function applied to the whole re-laid input: the output's
    block and the input's block sit at the same rows. -/
theorem flushed8 (c : Dev nD) (t : Fin cfg0.N) :
    (dats m 0 c).flushed 8 t = ((cfg0.win 8).blk t).view.read (Elt Ideal) (mapArr rDui (V m c main_v1)) := by
  show (cfg0.win 8).cut (grid0.coords t) ((dats m 0 c).after 8 t) = _
  rw [after0_8, out8]
  obtain ⟨a0, a1⟩ := idx0 t
  obtain ⟨b0, b1⟩ := idx8 t
  funext j
  show rDui (V m c main_v1 (((cfg0.win 0).blk t).view.emb j)) = rDui (V m c main_v1 (((cfg0.win 8).blk t).view.emb j))
  have h0 : ((cfg0.win 0).blk t).view.emb j = ((cfg0.win 8).blk t).view.emb j := by
    funext a; apply Fin.ext
    match a with
    | ⟨0, _⟩ => show win0_0.index t (0 : Fin 2) * 512 + 1 * (j 0).val = win0_8.index t (0 : Fin 2) * 512 + 1 * (j 0).val; omega
    | ⟨1, _⟩ => show win0_0.index t (1 : Fin 2) * 512 + 1 * (j 1).val = win0_8.index t (1 : Fin 2) * 512 + 1 * (j 1).val; omega
  rw [h0]

theorem mem_blk8 (t : Fin cfg0.N) (i : S16384x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v2_7).slice (win0_8.rect t)).set ↔ _
  rw [View.set_slice_whole, Rect.mem_set_unit]
  exact Iff.rfl

/-- Row `r` lies in the block of point `r / 512`: the blocks tile the array. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  obtain ⟨b0, b1⟩ := idx8 t
  have ht : t.val = (i 0).val / 512 := rfl
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

theorem final8 (c : Dev nD) : (dats m 0 c).arrAt 8 cfg0.N = mapArr rDui (V m c main_v1) :=
  (dats m 0 c).arrAt_eq_of_cover 8 (mapArr rDui (V m c main_v1)) (fun t _ => flushed8 m c t) cover8

/-- The restored result of window 8. -/
theorem tail8 (c : Dev nD) : (Pipeline.afterTail₀ cfgs (dats m) 0 (V0 m) [hostOps1] c main_v10 : S64x256x512.Idx → EReal)
    = shapeCast S64x256x512 ((dats m 0 c).arrAt 8 cfg0.N) Facts₀.shapeCasts_S16384x512_S64x256x512 := by
  unfold Pipeline.afterTail₀
  show StableHlo.after hostOps1 _ (Proc.devRef .tc main_v10) = _
  after_results
  have e := Pipeline.withArrays_arr spec0 launch0.win.arr_inj c (V0 m c) (fun w => (dats m 0 c).arrAt w cfg0.N) 8
  funext i
  exact congrArg (fun a : S16384x512.Idx → EReal => shapeCast S64x256x512 a Facts₀.shapeCasts_S16384x512_S64x256x512 i) e

theorem res8 (c : Dev nD) : (Pipeline.afterTail₀ cfgs (dats m) 0 (V0 m) [hostOps1] c main_v10 : S64x256x512.Idx → EReal)
    = through Facts₀.shapeCasts_S64x256x512_S8388608 Facts₀.shapeCasts_S8388608_S16384x512 Facts₀.shapeCasts_S16384x512_S64x256x512
        rDui (m ((c : Thread nD τ).loc main_arg0)) := by
  rw [tail8, final8, V_v1]; rfl

/-! ## The run, with every result named -/

/-- Every weakly fair execution terminates with each result the scalar function of its output applied to every
    element of the input (through the casts), and the input unchanged. -/
theorem run : θ_run defs (onTc (τ := τ) (main (F := Ideal))) ⟨m, fun _ => 0, ρ⟩ fun r => ∀ c : Dev nD,
      r.2.mem ((c.tc : Thread nD τ).loc main_v10) = through Facts₀.shapeCasts_S64x256x512_S8388608 Facts₀.shapeCasts_S8388608_S16384x512 Facts₀.shapeCasts_S16384x512_S64x256x512 rDui (m ((c.tc : Thread nD τ).loc main_arg0))
      ∧       r.2.mem ((c.tc : Thread nD τ).loc main_v6) = through Facts₀.shapeCasts_S64x256x512_S8388608 Facts₀.shapeCasts_S8388608_S16384x512 Facts₀.shapeCasts_S16384x512_S64x256x512 rGen (m ((c.tc : Thread nD τ).loc main_arg0))
      ∧       r.2.mem ((c.tc : Thread nD τ).loc main_v7) = through Facts₀.shapeCasts_S64x256x512_S8388608 Facts₀.shapeCasts_S8388608_S16384x512 Facts₀.shapeCasts_S16384x512_S64x256x512 rKan (m ((c.tc : Thread nD τ).loc main_arg0))
      ∧       r.2.mem ((c.tc : Thread nD τ).loc main_v4) = through Facts₀.shapeCasts_S64x256x512_S8388608 Facts₀.shapeCasts_S8388608_S16384x512 Facts₀.shapeCasts_S16384x512_S64x256x512 rKun (m ((c.tc : Thread nD τ).loc main_arg0))
      ∧       r.2.mem ((c.tc : Thread nD τ).loc main_v8) = through Facts₀.shapeCasts_S64x256x512_S8388608 Facts₀.shapeCasts_S8388608_S16384x512 Facts₀.shapeCasts_S16384x512_S64x256x512 rLi (m ((c.tc : Thread nD τ).loc main_arg0))
      ∧       r.2.mem ((c.tc : Thread nD τ).loc main_v3) = through Facts₀.shapeCasts_S64x256x512_S8388608 Facts₀.shapeCasts_S8388608_S16384x512 Facts₀.shapeCasts_S16384x512_S64x256x512 rQian (m ((c.tc : Thread nD τ).loc main_arg0))
      ∧       r.2.mem ((c.tc : Thread nD τ).loc main_v9) = through Facts₀.shapeCasts_S64x256x512_S8388608 Facts₀.shapeCasts_S8388608_S16384x512 Facts₀.shapeCasts_S16384x512_S64x256x512 rXun (m ((c.tc : Thread nD τ).loc main_arg0))
      ∧       r.2.mem ((c.tc : Thread nD τ).loc main_v5) = through Facts₀.shapeCasts_S64x256x512_S8388608 Facts₀.shapeCasts_S8388608_S16384x512 Facts₀.shapeCasts_S16384x512_S64x256x512 rZhen (m ((c.tc : Thread nD τ).loc main_arg0))
      ∧ r.2.mem ((c.tc : Thread nD τ).loc main_arg0) = m ((c.tc : Thread nD τ).loc main_arg0) :=
  (θ_run defs _ _).mono (fun r h c => ⟨
      ((h c).2 main_v10 (Pipeline.mem_restRefs_of main_v10 (by decide) (by decide))).trans (res8 m c),
      ((h c).2 main_v6 (Pipeline.mem_restRefs_of main_v6 (by decide) (by decide))).trans (res4 m c),
      ((h c).2 main_v7 (Pipeline.mem_restRefs_of main_v7 (by decide) (by decide))).trans (res5 m c),
      ((h c).2 main_v4 (Pipeline.mem_restRefs_of main_v4 (by decide) (by decide))).trans (res2 m c),
      ((h c).2 main_v8 (Pipeline.mem_restRefs_of main_v8 (by decide) (by decide))).trans (res6 m c),
      ((h c).2 main_v3 (Pipeline.mem_restRefs_of main_v3 (by decide) (by decide))).trans (res1 m c),
      ((h c).2 main_v9 (Pipeline.mem_restRefs_of main_v9 (by decide) (by decide))).trans (res7 m c),
      ((h c).2 main_v5 (Pipeline.mem_restRefs_of main_v5 (by decide) (by decide))).trans (res3 m c),
      ((h c).2 main_arg0 (Pipeline.mem_restRefs_of main_arg0 (by decide) (by decide))).trans (W_main_arg0 m (dats m) c)⟩)
    (run_main m ρ)

end Cert.ReferenceIdeal.Arrays

end
-- ==== Proof.Identities.lean ====
/-
  The eight activation outputs agree, arrangement against arrangement, at every finite real argument.

  Each function of either arrangement is evaluated at a real r as the extended real of an explicit real
  expression; the two expressions are then compared over the reals. With E = exp (-|r|): below zero E = exp r,
  from zero up E = exp (-r); the logistic function is 1 / (1 + exp (-r)), the hyperbolic tangent is
  (exp r - exp (-r)) / (exp r + exp (-r)), and exp r · exp (-r) = 1 turns either arrangement into the other.
  The literal 1/√2 denotes a positive real k, so |c · k| = |c| · k and c · k ≥ 0 exactly when c ≥ 0.
-/
import proofs.«126102_g2000006855445757_pallasbulk_964_2_alg».proof.Proof.Scalars
import Idealize.ShloMosaic.PureOps.Ideal.Laws

noncomputable section

namespace Cert.Act

open Idealize.ShloMosaic

/-! ## The literals -/

/-- The word of +0.0 denotes 0. -/
theorem z0_eq : z0 = 0 := by simp [Ideal.ofBits, Ideal.ieee]

/-- The word of 1.0 denotes 1. -/
theorem one_eq : one = 1 := by simp [Ideal.ofBits, Ideal.ieee, -EReal.coe_mul]; norm_num

/-- The word of 5.0 denotes 5. -/
theorem c5_eq : c5 = ((5 : ℝ) : EReal) := by simp [Ideal.ofBits, Ideal.ieee, -EReal.coe_mul]; norm_num

/-- The word of -5.0 denotes -5. -/
theorem cm5_eq : cm5 = ((-5 : ℝ) : EReal) := by simp [Ideal.ofBits, Ideal.ieee, -EReal.coe_mul]; norm_num

/-- The two words that differ in the sign bit only denote a real and its negative. -/
theorem c12_cm12 : ∃ a : ℝ, c12 = (a : EReal) ∧ cm12 = ((-a : ℝ) : EReal) := by
  refine ⟨10066330 * (2 : ℝ) ^ (-23 : ℤ), ?_, ?_⟩
  · simp [Ideal.ofBits, Ideal.ieee, -EReal.coe_mul]
  · simp [Ideal.ofBits, Ideal.ieee, -EReal.coe_mul]

/-- The single-precision 1/√2 denotes a positive real. -/
theorem ck_pos : ∃ k : ℝ, 0 < k ∧ ck = (k : EReal) := by
  refine ⟨11863283 * (2 : ℝ) ^ (-24 : ℤ), by positivity, ?_⟩
  simp [Ideal.ofBits, Ideal.ieee, -EReal.coe_mul]

/-! ## Coercion of the order operations and of the arithmetic around the literals -/

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

/-- max x (-x) at a real is the absolute value. -/
theorem abs'_coe (r : ℝ) : abs' (r : EReal) = ((|r| : ℝ) : EReal) := by
  show max (r : EReal) (-(r : EReal)) = _
  rw [← EReal.coe_neg, ← coe_max', abs_eq_max_neg]

theorem one_add_coe (e : ℝ) : one + (e : EReal) = ((1 + e : ℝ) : EReal) := by
  rw [one_eq, ← EReal.coe_one, ← EReal.coe_add]

theorem one_sub_coe (e : ℝ) : one - (e : EReal) = ((1 - e : ℝ) : EReal) := by
  rw [one_eq, ← EReal.coe_one, ← EReal.coe_sub]

theorem z0_sub_coe (e : ℝ) : z0 - (e : EReal) = ((-e : ℝ) : EReal) := by
  rw [z0_eq, zero_sub, EReal.coe_neg]

/-- The quotient of two reals, the divisor not zero. -/
theorem div_coe_coe (x : ℝ) {y : ℝ} (h : y ≠ 0) :
    Ideal.div (x : EReal) (y : EReal) = ((x / y : ℝ) : EReal) := by
  rw [Ideal.div_coe h, ← EReal.coe_mul, mul_one_div]

/-- 1 / (1 + e) at a positive real e. -/
theorem div_one_add {e : ℝ} (he : 0 < e) :
    Ideal.div one (one + (e : EReal)) = ((1 / (1 + e) : ℝ) : EReal) := by
  have h : (1 + e : ℝ) ≠ 0 := by positivity
  rw [one_add_coe, one_eq, ← EReal.coe_one, div_coe_coe 1 h]

/-- (1 - e²) / (1 + e²) at a real e. -/
theorem div_sub_add (e : ℝ) :
    Ideal.div (one - (e : EReal) * (e : EReal)) (one + (e : EReal) * (e : EReal))
      = (((1 - e * e) / (1 + e * e) : ℝ) : EReal) := by
  have h : (1 + e * e : ℝ) ≠ 0 := (add_pos_of_pos_of_nonneg one_pos (mul_self_nonneg e)).ne'
  rw [← EReal.coe_mul, one_add_coe, one_sub_coe, div_coe_coe _ h]

/-! ## The selections -/

theorem select_one {α : Type} (a b : α) : Scalar.select (1 : BitVec 1) a b = a := by
  simp [Scalar.select]

theorem select_zero {α : Type} (a b : α) : Scalar.select (0 : BitVec 1) a b = b := by
  simp [Scalar.select]

theorem kNeg_of_neg {r : ℝ} (h : r < 0) : kNeg (r : EReal) = 1 := by
  have h' : (r : EReal) < 0 := EReal.coe_neg'.mpr h
  unfold kNeg Ideal.cmp
  rw [z0_eq]
  simp [h']

theorem kNeg_of_nonneg {r : ℝ} (h : 0 ≤ r) : kNeg (r : EReal) = 0 := by
  have h' : ¬ (r : EReal) < 0 := not_lt.mpr (EReal.coe_nonneg.mpr h)
  unfold kNeg Ideal.cmp
  rw [z0_eq]
  simp [h']

theorem ogt_of_pos {r : ℝ} (h : 0 < r) : Ideal.cmp .ogt (r : EReal) z0 = 1 := by
  have h' : (0 : EReal) < (r : EReal) := EReal.coe_pos.mpr h
  unfold Ideal.cmp
  rw [z0_eq]
  simp [h']

theorem ogt_of_nonpos {r : ℝ} (h : r ≤ 0) : Ideal.cmp .ogt (r : EReal) z0 = 0 := by
  have h' : ¬ (0 : EReal) < (r : EReal) := not_lt.mpr (EReal.coe_nonpos.mpr h)
  unfold Ideal.cmp
  rw [z0_eq]
  simp [h']

theorem oge_of_nonneg {r : ℝ} (h : 0 ≤ r) : Ideal.cmp .oge (r : EReal) z0 = 1 := by
  have h' : (0 : EReal) ≤ (r : EReal) := EReal.coe_nonneg.mpr h
  unfold Ideal.cmp
  rw [z0_eq]
  simp [h']

theorem oge_of_neg {r : ℝ} (h : r < 0) : Ideal.cmp .oge (r : EReal) z0 = 0 := by
  have h' : ¬ (0 : EReal) ≤ (r : EReal) := not_le.mpr (EReal.coe_neg'.mpr h)
  unfold Ideal.cmp
  rw [z0_eq]
  simp [h']

/-! ## The shared transcendental -/

/-- E = exp (-|r|). -/
theorem kE_coe (r : ℝ) : kE (r : EReal) = ((Real.exp (-|r|) : ℝ) : EReal) := by
  unfold kE
  rw [abs'_coe, z0_sub_coe, Ideal.exp_coe]

/-! ## The eight outputs -/

/-- The sigmoid: E / (1 + E) below zero and 1 / (1 + E) from zero up are 1 / (1 + exp (-r)). -/
theorem kun_eq (r : ℝ) : kKun (r : EReal) = rKun (r : EReal) := by
  unfold kKun rKun
  rw [kE_coe, div_one_add (Real.exp_pos _), Ideal.logistic_coe]
  by_cases h : r < 0
  · rw [kNeg_of_neg h, select_one, ← EReal.coe_mul]
    congr 1
    rw [abs_of_neg h, neg_neg, Real.exp_neg]
    have := Real.exp_pos r
    field_simp
    ring
  · have h := not_lt.mp h
    rw [kNeg_of_nonneg h, select_zero]
    congr 1
    rw [abs_of_nonneg h, one_div]

/-- The hyperbolic tangent: ± (1 - E²) / (1 + E²) is (exp r - exp (-r)) / (exp r + exp (-r)). -/
theorem kan_eq (r : ℝ) : kKan (r : EReal) = rKan (r : EReal) := by
  unfold kKan rKan
  rw [kE_coe, div_sub_add, Ideal.tanh_coe, Real.tanh_eq]
  by_cases h : r < 0
  · rw [kNeg_of_neg h, select_one, z0_sub_coe]
    congr 1
    rw [abs_of_neg h, neg_neg, Real.exp_neg]
    have := Real.exp_pos r
    field_simp
    ring
  · have h := not_lt.mp h
    rw [kNeg_of_nonneg h, select_zero]
    congr 1
    rw [abs_of_nonneg h, Real.exp_neg]
    have := Real.exp_pos r
    field_simp

/-- The exponential-linear unit: below zero E = exp r = exp (min r 0); at zero exp 0 - 1 = 0; above zero r. -/
theorem elu_eq (r : ℝ) : kElu (r : EReal) = rElu (r : EReal) := by
  unfold kElu rElu
  rw [kE_coe]
  rcases lt_trichotomy r 0 with h | h | h
  · rw [kNeg_of_neg h, select_one, ogt_of_nonpos h.le, select_zero, z0_eq,
      min_eq_left (EReal.coe_nonpos.mpr h.le), Ideal.exp_coe, abs_of_neg h, neg_neg]
  · subst h
    rw [kNeg_of_nonneg le_rfl, select_zero, ogt_of_nonpos le_rfl, select_zero, z0_eq, ← EReal.coe_zero,
      min_self, Ideal.exp_coe, Real.exp_zero, one_eq, ← EReal.coe_one, ← EReal.coe_sub, sub_self]
  · rw [kNeg_of_nonneg h.le, select_zero, ogt_of_pos h, select_one]

/-- The exponential-linear unit plus half the hyperbolic tangent. -/
theorem qian_eq (r : ℝ) : kQian (r : EReal) = rQian (r : EReal) := by
  have h := kan_eq r
  unfold rKan at h
  unfold kQian rQian
  rw [elu_eq, h]

/-- The exponential-linear unit plus a fifth of the argument. -/
theorem dui_eq (r : ℝ) : kDui (r : EReal) = rDui (r : EReal) := by
  unfold kDui rDui
  rw [elu_eq]

/-- The leaky unit: the selection on r < 0 and the selection on r ≥ 0 with the branches exchanged. -/
theorem zhen_eq (r : ℝ) : kZhen (r : EReal) = rZhen (r : EReal) := by
  unfold kZhen rZhen
  by_cases h : r < 0
  · rw [kNeg_of_neg h, select_one, oge_of_neg h, select_zero]
  · have h := not_lt.mp h
    rw [kNeg_of_nonneg h, select_zero, oge_of_nonneg h, select_one]

/-- The softplus: the same expression on both sides. -/
theorem xun_eq (r : ℝ) : kXun (r : EReal) = rXun (r : EReal) := by
  unfold kXun rXun kE
  rfl

/-- The argument times a scaled sigmoid: with G = exp (-a |r|), G / (1 + G) below zero and 1 / (1 + G) from zero up
    are 1 / (1 + exp (-(a r))). -/
theorem li_eq (r : ℝ) : kLi (r : EReal) = rLi (r : EReal) := by
  obtain ⟨a, h1, h2⟩ := c12_cm12
  unfold kLi rLi
  rw [h1, h2, abs'_coe, ← EReal.coe_mul (-a) |r|, ← EReal.coe_mul a r, Ideal.exp_coe,
    div_one_add (Real.exp_pos _), Ideal.logistic_coe]
  congr 1
  by_cases h : r < 0
  · rw [kNeg_of_neg h, select_one, ← EReal.coe_mul]
    congr 1
    rw [abs_of_neg h, neg_mul_neg, Real.exp_neg]
    have := Real.exp_pos (a * r)
    field_simp
    ring
  · have h := not_lt.mp h
    rw [kNeg_of_nonneg h, select_zero]
    congr 1
    rw [abs_of_nonneg h, one_div, neg_mul]

/-- The clamp of a real to [-5, 5] is a real. -/
theorem clip_coe (r : ℝ) : clip (r : EReal) = ((min 5 (max (-5) r) : ℝ) : EReal) := by
  unfold clip
  rw [c5_eq, cm5_eq, ← coe_max', ← coe_min']

/-- |c · k| = |c| · k at a positive k. -/
theorem rZ_eq_kZ (r : ℝ) : rZ (r : EReal) = kZ (r : EReal) := by
  obtain ⟨k, hk, hck⟩ := ck_pos
  unfold rZ kZ
  rw [clip_coe, hck, abs'_coe, ← EReal.coe_mul, ← EReal.coe_mul, abs'_coe, abs_mul, abs_of_pos hk]

theorem rT_eq_kT (r : ℝ) : rT (r : EReal) = kT (r : EReal) := by
  unfold rT kT
  rw [rZ_eq_kZ]

/-- c · k ≥ 0 exactly when c ≥ 0, at a positive k. -/
theorem oge_clip_mul (r : ℝ) :
    Ideal.cmp .oge (clip (r : EReal) * ck) z0 = Ideal.cmp .oge (clip (r : EReal)) z0 := by
  obtain ⟨k, hk, hck⟩ := ck_pos
  rw [clip_coe, hck, ← EReal.coe_mul]
  by_cases h : 0 ≤ min 5 (max (-5) r)
  · rw [oge_of_nonneg h, oge_of_nonneg (mul_nonneg h hk.le)]
  · have h := not_le.mp h
    rw [oge_of_neg h, oge_of_neg (mul_neg_of_neg_of_pos h hk)]

/-- The clamped error-function unit: the two arguments of the tail and the two selections agree. -/
theorem gen_eq (r : ℝ) : kGen (r : EReal) = rGen (r : EReal) := by
  unfold kGen rGen
  rw [rT_eq_kT, rZ_eq_kZ, oge_clip_mul]

end Cert.Act

end
-- ==== Proof.Finite.lean ====
/-
  The precondition says that |x| < +∞ at every element of the input, all these comparisons folded into one bit by
  "and". Read back element by element: no element is +∞ or -∞, so each is a real number.
-/
import proofs.«126102_g2000006855445757_pallasbulk_964_2_alg».proof.Pre_finite_inputs
import Idealize.ShloMosaic.PureOps.Ideal
import Idealize.ShloMosaic.Lib.ReduceAll

noncomputable section

namespace Cert.Act

open Idealize.ShloMosaic Cert.Pre_finite_inputs

instance : Subsingleton Cert.Pre_finite_inputs.S_.Idx := ⟨fun a b => funext fun d => d.elim0⟩

/-- An extended real whose absolute value is below the word of +∞ is a real. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- Under the precondition every element of the input is a real. -/
theorem finite_of_pre [Cert.Pre_finite_inputs.Facts] (X : FVec Ideal S64x256x512 .f32)
    (h : Cert.Pre_finite_inputs.fn (F := Ideal) X = fun _ => 1#1) (k : S64x256x512.Idx) : ∃ r : ℝ, X k = (r : EReal) := by
  have h0 := congrFun h (fun d => d.elim0)
  dsimp only [Cert.Pre_finite_inputs.fn] at h0
  have hk := Host.reduce_andi_all _ _ _ _ _ h0 k
  exact real_of_abs_lt (X k) hk

end Cert.Act

end
-- ==== Proof.lean ====
/-
  Eight activation functions of one input array, computed by a fused kernel and by a fused reference, agree
  element by element as extended reals whenever every input element is finite.

  Both programs flatten the [64, 256, 512] input, re-lay it as 16384 rows of 512, apply to every element eight
  scalar functions (one per result), and restore each result to the input's shape; they differ in how many rows a
  grid point handles (1024 against 512) and in how the scalar functions are arranged. The kernel shares
  E = exp (-|x|) between the sigmoid (E / (1 + E) below zero, 1 / (1 + E) from zero up), the hyperbolic tangent
  (± (1 - E²) / (1 + E²)), the exponential-linear unit (E - 1 below zero) and the softplus, where the reference
  applies the logistic function, tanh and exp (min x 0); at a finite real these are the same numbers because
  exp x · exp (-x) = 1 (Proof/Identities.lean). The comparison is carried out at real arguments, which is where the
  precondition is used: it makes every element of the input a real (Proof/Finite.lean).

  Each program's result arrays are read off its run (Proof/KernelArrays.lean, Proof/ReferenceArrays.lean): the
  blocks tile the re-laid array, so each output is its scalar function applied to the whole array. The three
  frame claims are the programs' runs with the results forgotten, and no operation was rewritten by the
  idealization, so there is nothing to preserve.
-/
import proofs.«126102_g2000006855445757_pallasbulk_964_2_alg».proof.Defs
import proofs.«126102_g2000006855445757_pallasbulk_964_2_alg».proof.Proof.Gen.Kernel
import proofs.«126102_g2000006855445757_pallasbulk_964_2_alg».proof.Proof.Gen.Kernel.Skeleton
import proofs.«126102_g2000006855445757_pallasbulk_964_2_alg».proof.Proof.Gen.Kernel.Launch
import proofs.«126102_g2000006855445757_pallasbulk_964_2_alg».proof.Proof.Gen.Kernel.Points
import proofs.«126102_g2000006855445757_pallasbulk_964_2_alg».proof.Proof.Gen.Kernel.Frame
import proofs.«126102_g2000006855445757_pallasbulk_964_2_alg».proof.Proof.Gen.KernelIdeal
import proofs.«126102_g2000006855445757_pallasbulk_964_2_alg».proof.Proof.Gen.KernelIdeal.Skeleton
import proofs.«126102_g2000006855445757_pallasbulk_964_2_alg».proof.Proof.Gen.KernelIdeal.Launch
import proofs.«126102_g2000006855445757_pallasbulk_964_2_alg».proof.Proof.Gen.KernelIdeal.Points
import proofs.«126102_g2000006855445757_pallasbulk_964_2_alg».proof.Proof.Gen.KernelIdeal.Frame
import proofs.«126102_g2000006855445757_pallasbulk_964_2_alg».proof.Proof.Gen.ReferenceIdeal
import proofs.«126102_g2000006855445757_pallasbulk_964_2_alg».proof.Proof.Gen.ReferenceIdeal.Skeleton
import proofs.«126102_g2000006855445757_pallasbulk_964_2_alg».proof.Proof.Gen.ReferenceIdeal.Launch
import proofs.«126102_g2000006855445757_pallasbulk_964_2_alg».proof.Proof.Gen.ReferenceIdeal.Points
import proofs.«126102_g2000006855445757_pallasbulk_964_2_alg».proof.Proof.Gen.ReferenceIdeal.Frame
import proofs.«126102_g2000006855445757_pallasbulk_964_2_alg».proof.Proof.Gen.Pre_finite_inputs
import proofs.«126102_g2000006855445757_pallasbulk_964_2_alg».proof.Proof.KernelArrays
import proofs.«126102_g2000006855445757_pallasbulk_964_2_alg».proof.Proof.ReferenceArrays
import proofs.«126102_g2000006855445757_pallasbulk_964_2_alg».proof.Proof.Identities
import proofs.«126102_g2000006855445757_pallasbulk_964_2_alg».proof.Proof.Finite
import Idealize.ShloMosaic.Adequacy
import Idealize.ShloMosaic.Init

noncomputable section

namespace Cert.Proof

open Idealize.ShloMosaic Idealize.SL.Sem Cert.Kernel

/-- The kernel as printed runs and leaves its input unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference. -/
theorem frame_referenceIdeal : Cert.frame_ReferenceIdeal := fun m ρ _ => Cert.ReferenceIdeal.Gen.frame m ρ

/-- From inputs that agree and are finite, the two idealized programs end with equal results: result by result the
    two scalar functions agree at every real, and every element either applies its function to is a real. -/
theorem algebraic : Cert.algebraic_KernelIdeal_ReferenceIdeal := by
  intro m ρ m' ρ' hpre hagree
  have hfin : ∀ (c : Dev Cert.KernelIdeal.nD) k, ∃ r : ℝ,
      m ((c.tc : Thread Cert.KernelIdeal.nD Cert.KernelIdeal.τ).loc Cert.KernelIdeal.main_arg0) k = (r : EReal) :=
    fun c k => Cert.Act.finite_of_pre _ (hpre c) k
  refine ⟨_, _, _, _, _, _, _, _, Cert.KernelIdeal.Arrays.run m ρ, ?_⟩
  refine (θ_run Cert.ReferenceIdeal.defs _ _).mono (fun r h c => ?_) (Cert.ReferenceIdeal.Arrays.run m' ρ')
  obtain ⟨e0, e1, e2, e3, e4, e5, e6, e7, e8⟩ := h c
  rw [hagree c] at e0 e1 e2 e3 e4 e5 e6 e7
  exact ⟨e0.trans (Cert.Act.through_congr _ _ _ (hfin c) Cert.Act.dui_eq).symm,
    e1.trans (Cert.Act.through_congr _ _ _ (hfin c) Cert.Act.gen_eq).symm,
    e2.trans (Cert.Act.through_congr _ _ _ (hfin c) Cert.Act.kan_eq).symm,
    e3.trans (Cert.Act.through_congr _ _ _ (hfin c) Cert.Act.kun_eq).symm,
    e4.trans (Cert.Act.through_congr _ _ _ (hfin c) Cert.Act.li_eq).symm,
    e5.trans (Cert.Act.through_congr _ _ _ (hfin c) Cert.Act.qian_eq).symm,
    e6.trans (Cert.Act.through_congr _ _ _ (hfin c) Cert.Act.xun_eq).symm,
    e7.trans (Cert.Act.through_congr _ _ _ (hfin c) Cert.Act.zhen_eq).symm,
    e8⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
